-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_v15) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x12x2048x64 : Shape := ⟨4, ![4, 12, 2048, 64]⟩
abbrev S4x2048x2048 : Shape := ⟨3, ![4, 2048, 2048]⟩
abbrev S_ : Shape := ⟨0, ![]⟩

class Facts : Prop where
  bcast_S_S4x12x2048x64 : S_.BroadcastsInDim S4x12x2048x64 (![] : Fin 0 → Fin S4x12x2048x64.rank)
  reducesTo_S4x12x2048x64_S_d0_1_2_3 : S4x12x2048x64.ReducesTo [0, 1, 2, 3] S_
  h_S_ : 0 < S_.numel

variable [Facts]

def fn {F : FTy → Type} [FloatOps F] (main_arg0 : FVec F S4x12x2048x64 .f32) (main_arg1 : FVec F S4x12x2048x64 .f32) (main_arg2 : FVec F S4x12x2048x64 .f32) (main_arg3 : IVec S4x2048x2048 1) : IVec S_ 1 :=
  let main_v0 : FVec F S4x12x2048x64 .f32 := Host.absf main_arg0
  let main_cst : FVec F S_ .f32 := constant S_ .f32 0x7F800000#32
  let main_v1 : FVec F S4x12x2048x64 .f32 := broadcastInDim S4x12x2048x64 ![] bcast_S_S4x12x2048x64 main_cst
  let main_v2 : IVec S4x12x2048x64 1 := cmpf .olt main_v0 main_v1
  let main_c : IVec S_ 1 := constantI S_ 1 1#1
  let main_v3 : IVec S_ 1 := (fun x v => Host.reduce IntOp.andi x v reducesTo_S4x12x2048x64_S_d0_1_2_3 h_S_) main_v2 main_c
  let main_v4 : FVec F S4x12x2048x64 .f32 := Host.absf main_arg1
  let main_cst_0 : FVec F S_ .f32 := constant S_ .f32 0x7F800000#32
  let main_v5 : FVec F S4x12x2048x64 .f32 := broadcastInDim S4x12x2048x64 ![] bcast_S_S4x12x2048x64 main_cst_0
  let main_v6 : IVec S4x12x2048x64 1 := cmpf .olt main_v4 main_v5
  let main_c_1 : IVec S_ 1 := constantI S_ 1 1#1
  let main_v7 : IVec S_ 1 := (fun x v => Host.reduce IntOp.andi x v reducesTo_S4x12x2048x64_S_d0_1_2_3 h_S_) main_v6 main_c_1
  let main_v8 : IVec S_ 1 := andi main_v3 main_v7
  let main_v9 : FVec F S4x12x2048x64 .f32 := Host.absf main_arg2
  let main_cst_2 : FVec F S_ .f32 := constant S_ .f32 0x7F800000#32
  let main_v10 : FVec F S4x12x2048x64 .f32 := broadcastInDim S4x12x2048x64 ![] bcast_S_S4x12x2048x64 main_cst_2
  let main_v11 : IVec S4x12x2048x64 1 := cmpf .olt main_v9 main_v10
  let main_c_3 : IVec S_ 1 := constantI S_ 1 1#1
  let main_v12 : IVec S_ 1 := (fun x v => Host.reduce IntOp.andi x v reducesTo_S4x12x2048x64_S_d0_1_2_3 h_S_) main_v11 main_c_3
  let main_v13 : IVec S_ 1 := andi main_v8 main_v12
  main_v13
-- ==== Kernel.lean ====
abbrev S4x12x2048x64 : Shape := ⟨4, ![4, 12, 2048, 64]⟩
abbrev S4x2048x2048 : Shape := ⟨3, ![4, 2048, 2048]⟩
abbrev S48x2048x64 : Shape := ⟨3, ![48, 2048, 64]⟩
abbrev S48x2048x2048 : Shape := ⟨3, ![48, 2048, 2048]⟩
abbrev S1x512x64 : Shape := ⟨3, ![1, 512, 64]⟩
abbrev S1x2048x64 : Shape := ⟨3, ![1, 2048, 64]⟩
abbrev S1x2048x2048 : Shape := ⟨3, ![1, 2048, 2048]⟩
abbrev S1x512x2048 : Shape := ⟨3, ![1, 512, 2048]⟩
abbrev S512x64 : Shape := ⟨2, ![512, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩
abbrev S4x12x2048x2048 : Shape := ⟨4, ![4, 12, 2048, 2048]⟩

abbrev nBuf : Space → Nat
  | .hbm => 12
  | .vmem => 12
  | .smem => 0
  | _ => 0

abbrev bufTy : (tb : Table) → Fin (tcTables nBuf tb) → BufTy
  | .hbm, ⟨0, _⟩ => ⟨S4x12x2048x64, .f32⟩
  | .hbm, ⟨1, _⟩ => ⟨S4x12x2048x64, .f32⟩
  | .hbm, ⟨2, _⟩ => ⟨S4x12x2048x64, .f32⟩
  | .hbm, ⟨3, _⟩ => ⟨S4x2048x2048, .i1⟩
  | .hbm, ⟨4, _⟩ => ⟨S48x2048x64, .f32⟩
  | .hbm, ⟨5, _⟩ => ⟨S48x2048x64, .f32⟩
  | .hbm, ⟨6, _⟩ => ⟨S48x2048x64, .f32⟩
  | .hbm, ⟨7, _⟩ => ⟨S4x2048x2048, .i32⟩
  | .hbm, ⟨8, _⟩ => ⟨S48x2048x64, .f32⟩
  | .hbm, ⟨9, _⟩ => ⟨S48x2048x2048, .f32⟩
  | .hbm, ⟨10, _⟩ => ⟨S4x12x2048x64, .f32⟩
  | .hbm, ⟨11, _⟩ => ⟨S4x12x2048x2048, .f32⟩
  | .local _ .vmem, ⟨0, _⟩ => ⟨S1x512x64, .f32⟩
  | .local _ .vmem, ⟨1, _⟩ => ⟨S1x512x64, .f32⟩
  | .local _ .vmem, ⟨2, _⟩ => ⟨S1x2048x64, .f32⟩
  | .local _ .vmem, ⟨3, _⟩ => ⟨S1x2048x64, .f32⟩
  | .local _ .vmem, ⟨4, _⟩ => ⟨S1x2048x64, .f32⟩
  | .local _ .vmem, ⟨5, _⟩ => ⟨S1x2048x64, .f32⟩
  | .local _ .vmem, ⟨6, _⟩ => ⟨S1x2048x2048, .i32⟩
  | .local _ .vmem, ⟨7, _⟩ => ⟨S1x2048x2048, .i32⟩
  | .local _ .vmem, ⟨8, _⟩ => ⟨S1x512x64, .f32⟩
  | .local _ .vmem, ⟨9, _⟩ => ⟨S1x512x64, .f32⟩
  | .local _ .vmem, ⟨10, _⟩ => ⟨S1x512x2048, .f32⟩
  | .local _ .vmem, ⟨11, _⟩ => ⟨S1x512x2048, .f32⟩
  | _, _ => ⟨S4x12x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![48, 4], ![false, false]⟩

def k0_mult1 (i : grid0.Coords) : BitVec 32 :=
  let arg1 : BitVec 32 := BitVec.ofNat 32 (i 1).val
  let c512_i32 : BitVec 32 := 512#32
  let v12 : BitVec 32 := Scalar.muli arg1 c512_i32
  v12
def k0_off1 (i : grid0.Coords) : Fin 3 → Nat :=
  let c0_9 : Index := 0#32
  let arg1 : BitVec 32 := BitVec.ofNat 32 (i 1).val
  let c512_i32 : BitVec 32 := 512#32
  let v12 : BitVec 32 := Scalar.muli arg1 c512_i32
  let v13 : BitVec 32 := v12
  let v14 : Index := Scalar.indexCast v13
  let c0_10 : Index := 0#32
  ![0, v14.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.divsi arg0 c12_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c12_i32 c0_i32_1
  let v7 : BitVec 32 := Scalar.extui v6
  let c0_i32_2 : BitVec 32 := 0#32
  let v8 : BitVec 1 := Scalar.cmpi .slt c12_i32 c0_i32_2
  let v9 : BitVec 32 := Scalar.extui v8
  let v10 : BitVec 32 := Scalar.subi v7 v9
  let v11 : BitVec 1 := Scalar.cmpi .ne v5 v10
  let v12 : BitVec 32 := Scalar.remsi arg0 c12_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  shapeCasts_S4x12x2048x64_S48x2048x64 : S4x12x2048x64.ShapeCasts S48x2048x64
  natLt_1_32 : 1 < 32
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  bitsLt_bf16_f32 : FTy.bits .bf16 < FTy.bits .f32
  h_S1x512x2048 : 0 < S1x512x2048.numel
  shapeCasts_S1x512x2048_S512x2048 : S1x512x2048.ShapeCasts S512x2048
  reduces_S512x2048_S512 : S512x2048.Reduces [1] S512
  shapeCasts_S512_S512x1 : S512.ShapeCasts S512x1
  broadcasts_S512x1_S512x2048 : S512x1.Broadcasts S512x2048
  inb_S1x512x2048_S1x512x2048_0_0_0 : ∀ a, (![0, 0, 0] : Fin 3 → Nat) a + S1x512x2048.size a ≤ S1x512x2048.size a
  shapeCasts_S512x2048_S1x512x2048 : S512x2048.ShapeCasts S1x512x2048
  broadcasts_S512x1_S512x64 : S512x1.Broadcasts S512x64
  shapeCasts_S512x64_S1x512x64 : S512x64.ShapeCasts S1x512x64
  shapeCasts_S48x2048x64_S4x12x2048x64 : S48x2048x64.ShapeCasts S4x12x2048x64
  shapeCasts_S48x2048x2048_S4x12x2048x2048 : S48x2048x2048.ShapeCasts S4x12x2048x2048
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hrank0 : 0 < grid0.rank
  k0_mult1_dvd : ∀ i : grid0.Coords, 512 ∣ (k0_mult1 i).toNat
  k0_off1_inb : ∀ i : grid0.Coords, ∀ a, (k0_off1 i) a + S1x512x2048.size a ≤ S1x2048x2048.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x64.size a ≤ S48x2048x64.size a
  hwx0_0 : ∀ i : grid0.Coords, EltTy.bits .f32 = 32 ∨ (Rect.block (s := S48x2048x64) S1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S48x2048x64.size a
  hwx0_1 : ∀ i : grid0.Coords, EltTy.bits .f32 = 32 ∨ (Rect.block (s := S48x2048x64) S1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S48x2048x64.size a
  hwx0_2 : ∀ i : grid0.Coords, EltTy.bits .f32 = 32 ∨ (Rect.block (s := S48x2048x64) S1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x2048.size a ≤ S4x2048x2048.size a
  hwx0_3 : ∀ i : grid0.Coords, EltTy.bits .i32 = 32 ∨ (Rect.block (s := S4x2048x2048) S1x2048x2048.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x64.size a ≤ S48x2048x64.size a
  hwx0_4 : ∀ i : grid0.Coords, EltTy.bits .f32 = 32 ∨ (Rect.block (s := S48x2048x64) S1x512x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x2048.size a ≤ S48x2048x2048.size a
  hwx0_5 : ∀ i : grid0.Coords, EltTy.bits .f32 = 32 ∨ (Rect.block (s := S48x2048x2048) S1x512x2048.size (cc0_transform_5 i) (hinb0_5 i)).WholeWords (EltTy.packing .f32)

variable [Facts₀]

def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_v0) S1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x2048x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4_0) S1x512x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4_1) S1x512x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x12x2048x64 : Shape := ⟨4, ![4, 12, 2048, 64]⟩
abbrev S4x2048x2048 : Shape := ⟨3, ![4, 2048, 2048]⟩
abbrev S4x12x2048x2048 : Shape := ⟨4, ![4, 12, 2048, 2048]⟩
abbrev S_ : Shape := ⟨0, ![]⟩
abbrev S4x1x2048x2048 : Shape := ⟨4, ![4, 1, 2048, 2048]⟩
abbrev S4x12x2048 : Shape := ⟨3, ![4, 12, 2048]⟩
abbrev S4x12x2048x1 : Shape := ⟨4, ![4, 12, 2048, 1]⟩

abbrev nBuf : Space → Nat
  | .hbm => 29
  | .vmem => 0
  | .smem => 0
  | _ => 0

abbrev bufTy : (tb : Table) → Fin (tcTables nBuf tb) → BufTy
  | .hbm, ⟨0, _⟩ => ⟨S4x12x2048x64, .f32⟩
  | .hbm, ⟨1, _⟩ => ⟨S4x12x2048x64, .f32⟩
  | .hbm, ⟨2, _⟩ => ⟨S4x12x2048x64, .f32⟩
  | .hbm, ⟨3, _⟩ => ⟨S4x2048x2048, .i1⟩
  | .hbm, ⟨4, _⟩ => ⟨S4x12x2048x2048, .f32⟩
  | .hbm, ⟨5, _⟩ => ⟨S_, .f32⟩
  | .hbm, ⟨6, _⟩ => ⟨S4x12x2048x2048, .f32⟩
  | .hbm, ⟨7, _⟩ => ⟨S4x12x2048x2048, .f32⟩
  | .hbm, ⟨8, _⟩ => ⟨S4x1x2048x2048, .i1⟩
  | .hbm, ⟨9, _⟩ => ⟨S_, .f32⟩
  | .hbm, ⟨10, _⟩ => ⟨S_, .f32⟩
  | .hbm, ⟨11, _⟩ => ⟨S4x12x2048x2048, .i1⟩
  | .hbm, ⟨12, _⟩ => ⟨S4x12x2048x2048, .f32⟩
  | .hbm, ⟨13, _⟩ => ⟨S4x12x2048x2048, .f32⟩
  | .hbm, ⟨14, _⟩ => ⟨S_, .f32⟩
  | .hbm, ⟨15, _⟩ => ⟨S4x12x2048, .f32⟩
  | .hbm, ⟨16, _⟩ => ⟨S_, .f32⟩
  | .hbm, ⟨17, _⟩ => ⟨S4x12x2048, .f32⟩
  | .hbm, ⟨18, _⟩ => ⟨S4x12x2048, .f32⟩
  | .hbm, ⟨19, _⟩ => ⟨S4x12x2048x1, .f32⟩
  | .hbm, ⟨20, _⟩ => ⟨S4x12x2048x2048, .f32⟩
  | .hbm, ⟨21, _⟩ => ⟨S4x12x2048x2048, .f32⟩
  | .hbm, ⟨22, _⟩ => ⟨S4x12x2048x2048, .f32⟩
  | .hbm, ⟨23, _⟩ => ⟨S_, .f32⟩
  | .hbm, ⟨24, _⟩ => ⟨S4x12x2048, .f32⟩
  | .hbm, ⟨25, _⟩ => ⟨S4x12x2048x1, .f32⟩
  | .hbm, ⟨26, _⟩ => ⟨S4x12x2048x2048, .f32⟩
  | .hbm, ⟨27, _⟩ => ⟨S4x12x2048x2048, .f32⟩
  | .hbm, ⟨28, _⟩ => ⟨S4x12x2048x64, .f32⟩
  | _, _ => ⟨S4x12x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_3 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩

abbrev nD : Nat := 1
abbrev τ : Topo := Topo.v7x

variable {F : FTy → Type} [FloatOps F]

class Facts₀ : Prop where
  bcast_S_S4x12x2048x2048 : S_.BroadcastsInDim S4x12x2048x2048 (![] : Fin 0 → Fin S4x12x2048x2048.rank)
  bcast_S4x2048x2048_S4x1x2048x2048_0_2_3 : S4x2048x2048.BroadcastsInDim S4x1x2048x2048 (![0, 2, 3] : Fin 3 → Fin S4x1x2048x2048.rank)
  bcast_S4x1x2048x2048_S4x12x2048x2048_0_1_2_3 : S4x1x2048x2048.BroadcastsInDim S4x12x2048x2048 (![0, 1, 2, 3] : Fin 4 → Fin S4x12x2048x2048.rank)
  reducesTo_S4x12x2048x2048_S4x12x2048_d3 : S4x12x2048x2048.ReducesTo [3] S4x12x2048
  h_S_ : 0 < S_.numel
  bcast_S_S4x12x2048 : S_.BroadcastsInDim S4x12x2048 (![] : Fin 0 → Fin S4x12x2048.rank)
  bcast_S4x12x2048_S4x12x2048x1_0_1_2 : S4x12x2048.BroadcastsInDim S4x12x2048x1 (![0, 1, 2] : Fin 3 → Fin S4x12x2048x1.rank)
  bcast_S4x12x2048x1_S4x12x2048x2048_0_1_2_3 : S4x12x2048x1.BroadcastsInDim S4x12x2048x2048 (![0, 1, 2, 3] : Fin 4 → Fin S4x12x2048x2048.rank)
  dot_S4x12x2048x64_S4x12x2048x64_S4x12x2048x2048_3_3_2_2_01_01_wf : DotDims.WF S4x12x2048x64 S4x12x2048x64 S4x12x2048x2048 [3] [3] [2] [2] [0, 1] [0, 1]
  dot_S4x12x2048x2048_S4x12x2048x64_S4x12x2048x64_3_2_2_3_01_01_wf : DotDims.WF S4x12x2048x2048 S4x12x2048x64 S4x12x2048x64 [3] [2] [2] [3] [0, 1] [0, 1]

variable [Facts₀]

def dot_S4x12x2048x64_S4x12x2048x64_S4x12x2048x2048_3_3_2_2_01_01 : DotDims S4x12x2048x64 S4x12x2048x64 S4x12x2048x2048 where
  lhsContracting := [3]
  rhsContracting := [3]
  lhsNonContracting := [2]
  rhsNonContracting := [2]
  lhsBatch := [0, 1]
  rhsBatch := [0, 1]
  wf := dot_S4x12x2048x64_S4x12x2048x64_S4x12x2048x2048_3_3_2_2_01_01_wf
def dot_S4x12x2048x2048_S4x12x2048x64_S4x12x2048x64_3_2_2_3_01_01 : DotDims S4x12x2048x2048 S4x12x2048x64 S4x12x2048x64 where
  lhsContracting := [3]
  rhsContracting := [2]
  lhsNonContracting := [2]
  rhsNonContracting := [3]
  lhsBatch := [0, 1]
  rhsBatch := [0, 1]
  wf := dot_S4x12x2048x2048_S4x12x2048x64_S4x12x2048x64_3_2_2_3_01_01_wf

class Facts : Prop extends Facts₀ where

variable [Facts]
-- ==== Proof.BodyStores.lean ====
/-
  What one run of the kernel's body leaves in its two output staging buffers, as values.

  The body stores each output block once, through the whole buffer, so what the buffer holds afterwards is that
  store's value; and the value is a function of what the body loaded: the query block, the head's key and value
  arrays, and the 512 rows of the staged mask that start at row 512 · (the point's second coordinate).
-/
import proofs.«157889_j7327214207255_2_alg».proof.Proof.Gen.KernelIdeal.Frame
import Idealize.ShloMosaic.Lib.Pipeline.Value
import Idealize.ShloMosaic.Lib.Tactic

noncomputable section

namespace Cert.KernelIdeal.BodyStores

open Cert.KernelIdeal Cert.KernelIdeal.Gen Idealize.ShloMosaic Idealize.ShloMosaic.TcCoe Idealize.SL.Sem
open Idealize.ShloMosaic.Tactic

variable {F : FTy → Type} [FloatOps F]

theorem zero3 : (![0, 0, 0] : Fin 3 → Nat) = fun _ => 0 := funext fun a => by fin_cases a <;> rfl

/-- The rows of the staged mask the body loads at a grid point: 512 rows from row `512 · i₁`. -/
abbrev maskRows (i : grid0.Coords) (x3 : Vec F S1x2048x2048 .i32) : Vec F S1x512x2048 .i32 :=
  View.ld x3 (Rect.unit (k0_off1 i) S1x512x2048.size (k0_off1_inb i))

/-- The attention staging buffer ends at the attention block of the loaded blocks. -/
theorem attn_store (c : Dev nD) (i : grid0.Coords) (arg2 : Memref sig .tc .vmem S1x512x64 .f32) (harg2 : arg2.IsWhole) (arg3 : Memref sig .tc .vmem S1x2048x64 .f32) (harg3 : arg3.IsWhole) (arg4 : Memref sig .tc .vmem S1x2048x64 .f32) (harg4 : arg4.IsWhole) (arg5 : Memref sig .tc .vmem S1x2048x2048 .i32) (harg5 : arg5.IsWhole) (arg6 : Memref sig .tc .vmem S1x512x64 .f32) (harg6 : arg6.IsWhole) (arg7 : Memref sig .tc .vmem S1x512x2048 .f32) (harg7 : arg7.IsWhole)
    (x0 : Vec F S1x512x64 .f32) (x1 : Vec F S1x2048x64 .f32) (x2 : Vec F S1x2048x64 .f32) (x3 : Vec F S1x2048x2048 .i32) :
    out0_A_5 c i arg2 harg2 arg3 harg3 arg4 harg4 arg5 harg5 arg6 harg6 arg7 harg7 x0 x1 x2 x3 = k0_pay5 x0 x1 (maskRows i x3) := by
  unfold out0_A_5
  rw [View.read_writes_eq_canon _ _ _ (cover0_A_5 c i arg2 harg2 arg3 harg3 arg4 harg4 arg5 harg5 arg6 harg6 arg7 harg7 x0 x1 x2 x3)]
  unfold kernelRun0_A
  dsimp only
  rw [View.canon_unit_zero zero3]
  simp only [View.readAt_eq_ld, harg2.read_unread, harg3.read_unread, harg5.read_unread,
    View.ld_unit_zero (S := S1x512x64) zero3, View.ld_unit_zero (S := S1x2048x64) zero3]

/-- The output staging buffer ends at the output block of the loaded blocks. -/
theorem out_store (c : Dev nD) (i : grid0.Coords) (arg2 : Memref sig .tc .vmem S1x512x64 .f32) (harg2 : arg2.IsWhole) (arg3 : Memref sig .tc .vmem S1x2048x64 .f32) (harg3 : arg3.IsWhole) (arg4 : Memref sig .tc .vmem S1x2048x64 .f32) (harg4 : arg4.IsWhole) (arg5 : Memref sig .tc .vmem S1x2048x2048 .i32) (harg5 : arg5.IsWhole) (arg6 : Memref sig .tc .vmem S1x512x64 .f32) (harg6 : arg6.IsWhole) (arg7 : Memref sig .tc .vmem S1x512x2048 .f32) (harg7 : arg7.IsWhole)
    (x0 : Vec F S1x512x64 .f32) (x1 : Vec F S1x2048x64 .f32) (x2 : Vec F S1x2048x64 .f32) (x3 : Vec F S1x2048x2048 .i32) :
    out0_A_4 c i arg2 harg2 arg3 harg3 arg4 harg4 arg5 harg5 arg6 harg6 arg7 harg7 x0 x1 x2 x3
      = k0_pay1 (k0_pay2 x2) (k0_pay4 x0 x1 (maskRows i x3)) (k0_pay6 x0 x1 (maskRows i x3)) := by
  unfold out0_A_4
  rw [View.read_writes_eq_canon _ _ _ (cover0_A_4 c i arg2 harg2 arg3 harg3 arg4 harg4 arg5 harg5 arg6 harg6 arg7 harg7 x0 x1 x2 x3)]
  unfold kernelRun0_A
  dsimp only
  sl_unfold_words
  rw [View.canon_unit_zero zero3]
  simp only [View.readAt_eq_ld, harg2.read_unread, harg3.read_unread, harg4.read_unread, harg5.read_unread,
    View.ld_unit_zero (S := S1x512x64) zero3, View.ld_unit_zero (S := S1x2048x64) zero3]
  rfl

end Cert.KernelIdeal.BodyStores

end
-- ==== Proof.LibSoftmaxRow.lean ====
/-
  One row of a softmax over the extended reals, and the two laws that let the normalising factor move.

  For a row of scores `s` the row maximum is the fold of `max` from −∞, the numerator at `c` is
  `exp (s c − max)` and the denominator is the sum of the numerators.  When every score is a real number
  (and the row is not empty) the maximum is attained, so it is real, every numerator is a positive real
  and so is the denominator.  Division by a nonzero real `L` is multiplication by `1 / L` on every
  extended real, hence

    numerator · (1 / denominator) = numerator / denominator,

  and, because multiplication by a nonnegative real distributes over every sum of extended reals,

    (∑ c, numerator c · v c) · (1 / denominator) = ∑ c, (numerator c / denominator) · v c

  for arbitrary extended reals `v c`.  Neither law holds for a zero denominator (there `1 / 0 = +∞` while
  `0 / 0` is not `0 · ∞`), which is why the scores are assumed real.
-/
import Idealize.ShloMosaic.PureOps.Ideal.Laws

noncomputable section

namespace Cert.Softmax

open Idealize.ShloMosaic

variable {ι : Type} [Fintype ι]

/-- A finite sum of reals, read in the extended reals, is the sum of the summands read there. -/
theorem coe_sum (t : Finset ι) (f : ι → ℝ) : ((∑ c ∈ t, f c : ℝ) : EReal) = ∑ c ∈ t, (f c : EReal) := by
  classical
  induction t using Finset.induction_on with
  | empty => simp
  | insert a t ha ih => rw [Finset.sum_insert ha, Finset.sum_insert ha, EReal.coe_add, ih]

/-- Multiplication by a nonnegative real distributes over a finite sum of extended reals. -/
theorem sum_mul_coe (t : Finset ι) (f : ι → EReal) {x : ℝ} (hx : 0 ≤ x) :
    (∑ c ∈ t, f c) * (x : EReal) = ∑ c ∈ t, f c * (x : EReal) := by
  classical
  induction t using Finset.induction_on with
  | empty => simp
  | insert a t ha ih =>
    rw [Finset.sum_insert ha, Finset.sum_insert ha,
      EReal.right_distrib_of_nonneg_of_ne_top (by exact_mod_cast hx) (EReal.coe_ne_top x), ih]

/-- The largest score of the row, starting from −∞. -/
def rowMax (s : ι → EReal) : EReal := Finset.univ.fold max ⊥ s

/-- The softmax numerator: the exponential of the score's distance below the row maximum. -/
def num (s : ι → EReal) (c : ι) : EReal := Ideal.exp (s c - rowMax s)

/-- The softmax denominator: the sum of the row's numerators. -/
def den (s : ι → EReal) : EReal := ∑ c, num s c

variable [Nonempty ι] {s : ι → EReal}

/-- A nonempty row of real scores attains its maximum, which is therefore real. -/
theorem rowMax_real (hs : ∀ c, ∃ r : ℝ, s c = r) : ∃ r : ℝ, rowMax s = r := by
  obtain ⟨c0, -, hc0⟩ := Finset.exists_max_image Finset.univ s Finset.univ_nonempty
  have h : rowMax s = s c0 :=
    le_antisymm ((Finset.fold_max_le _).2 ⟨bot_le, fun c hc => hc0 c hc⟩)
      ((Finset.le_fold_max _).2 (Or.inr ⟨c0, Finset.mem_univ _, le_rfl⟩))
  obtain ⟨r, hr⟩ := hs c0
  exact ⟨r, h.trans hr⟩

/-- Every numerator of a row of real scores is a positive real. -/
theorem num_real (hs : ∀ c, ∃ r : ℝ, s c = r) (c : ι) : ∃ r : ℝ, 0 < r ∧ num s c = r := by
  obtain ⟨a, ha⟩ := hs c
  obtain ⟨b, hb⟩ := rowMax_real hs
  refine ⟨Real.exp (a - b), Real.exp_pos _, ?_⟩
  unfold num
  rw [ha, hb, ← EReal.coe_sub]
  rfl

/-- The denominator of a nonempty row of real scores is a positive real. -/
theorem den_real (hs : ∀ c, ∃ r : ℝ, s c = r) : ∃ L : ℝ, 0 < L ∧ den s = L := by
  choose P hP using num_real hs
  refine ⟨∑ c, P c, Finset.sum_pos (fun c _ => (hP c).1) Finset.univ_nonempty, ?_⟩
  unfold den
  rw [coe_sum]
  exact Finset.sum_congr rfl fun c _ => (hP c).2

/-- A numerator times the reciprocal of the denominator is the numerator divided by the denominator. -/
theorem num_mul_inv_den (hs : ∀ c, ∃ r : ℝ, s c = r) (c : ι) :
    num s c * Ideal.div 1 (den s) = Ideal.div (num s c) (den s) := by
  obtain ⟨L, hL, hden⟩ := den_real hs
  rw [hden, Ideal.div_coe hL.ne', Ideal.div_coe hL.ne', one_mul]

/-- Normalising after the weighted sum is normalising each weight first: the reciprocal of the denominator,
    a nonnegative real, distributes over the sum. -/
theorem sum_mul_inv_den (hs : ∀ c, ∃ r : ℝ, s c = r) (v : ι → EReal) :
    (∑ c, num s c * v c) * Ideal.div 1 (den s) = ∑ c, Ideal.div (num s c) (den s) * v c := by
  obtain ⟨L, hL, hden⟩ := den_real hs
  rw [hden, Ideal.div_coe hL.ne', one_mul, sum_mul_coe _ _ (by positivity : (0 : ℝ) ≤ 1 / L)]
  refine Finset.sum_congr rfl fun c _ => ?_
  rw [Ideal.div_coe hL.ne', mul_right_comm]

end Cert.Softmax

end
-- ==== Proof.LibColumnLayout.lean ====
/-
  Two layout operations that only move indices, read at an index given by its coordinates: a vector cast to a
  one-column matrix, and a one-column matrix broadcast along its rows.  Together they carry a per-row quantity
  (a row maximum, a row sum, its reciprocal) kept as a `[a, 1]` column back onto every entry of its row.
-/
import Idealize.ShloMosaic.Lib.ValueIdx
import Idealize.ShloMosaic.Lib.Pipeline.Value

noncomputable section

namespace Cert.ColumnLayout

open Idealize.ShloMosaic Idealize.ShloMosaic.ValueIdx

/-- A vector cast to a one-column matrix reads, at `(i, 0)`, the vector at `i`. -/
theorem shapeCast_a_a1_apply {a : ℕ} {α : Type} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A one-column matrix broadcast along its rows reads, at `(i, j)`, the column at `(i, 0)`. -/
theorem broadcastTo_a1_ab_apply {a b : ℕ} {α : Type} (x : (⟨2, ![a, 1]⟩ : Shape).Idx → α)
    (h : (⟨2, ![a, 1]⟩ : Shape).Broadcasts ⟨2, ![a, b]⟩) (i : Fin a) (j : Fin b) :
    broadcastTo ⟨2, ![a, b]⟩ x h (ix2 i j) = x (ix2 i (0 : Fin 1)) :=
  broadcastTo_apply x h _ _ (fun c => match c with
    | ⟨0, _⟩ => by
      show i.val = if a = 1 then 0 else i.val
      have := i.isLt
      split <;> omega
    | ⟨1, _⟩ => by
      show 0 = if (1 : ℕ) = 1 then 0 else j.val
      rw [if_pos rfl])

end Cert.ColumnLayout

end
-- ==== Proof.LibMatmulLastAxis.lean ====
/-
  A matrix product that contracts the LAST axis of both rank-2 operands (`x @ w.T`: an `M × K` left operand, an
  `N × K` right operand, an `M × N` result, dimension numbers `<[1], [1], [0], [0], [0, 0, 1, 0], [], []>`), read
  at one entry over the extended reals.

  Whatever record of dimension numbers carries those six lists, the left operand is read at row `p` of the result
  index and column `k` of the contraction, the right operand at row `q` and column `k`; the contraction index
  is one coordinate, so the sum over it is a sum over `Fin K`. Into a zero accumulator the product's entry
  `(p, q)` is therefore `∑ k, l (p, k) · r (q, k)`; into any accumulator it is the accumulator's entry plus that
  sum.
-/
import Idealize.ShloMosaic.PureOps.Ideal
import Idealize.ShloMosaic.PureOps.Ideal.Laws
import Idealize.ShloMosaic.Lib.ValueIdx

noncomputable section

namespace Idealize.ShloMosaic.MatmulLastAxis

open Idealize.ShloMosaic Idealize.ShloMosaic.ValueIdx
open scoped BigOperators

variable {M N K : Nat}

/-- The six lists of dimension numbers of `x @ w.T`. -/
structure IsLastAxis (D : DotDims ⟨2, ![M, K]⟩ ⟨2, ![N, K]⟩ ⟨2, ![M, N]⟩) : Prop where
  lc : D.lhsContracting = [1]
  rc : D.rhsContracting = [1]
  ln : D.lhsNonContracting = [0]
  rn : D.rhsNonContracting = [0]
  lb : D.lhsBatch = []
  rb : D.rhsBatch = []

variable {D : DotDims ⟨2, ![M, K]⟩ ⟨2, ![N, K]⟩ ⟨2, ![M, N]⟩}

theorem IsLastAxis.rank_contr (h : IsLastAxis D) : D.contr.rank = 1 := by
  rw [D.rank_contr, h.lc]; rfl

theorem IsLastAxis.size_contr (h : IsLastAxis D) : D.contr.size ⟨0, by rw [h.rank_contr]; exact Nat.one_pos⟩ = K := by
  have e := D.size_contr 0 (by rw [h.lc]; exact Nat.one_pos)
  rw [e]
  simp only [h.lc]
  rfl

/-- The left operand's row is the result's row. -/
theorem IsLastAxis.lhs_row (h : IsLastAxis D) (j : (⟨2, ![M, N]⟩ : Shape).Idx) (k : D.contr.Idx) :
    (D.lhsIdx j k 0).val = (j 0).val := by
  have hb : (0 : Fin (⟨2, ![M, K]⟩ : Shape).rank) ∉ D.lhsBatch := by rw [h.lb]; exact List.not_mem_nil
  have hn : (0 : Fin (⟨2, ![M, K]⟩ : Shape).rank) ∈ D.lhsNonContracting := by rw [h.ln]; exact List.mem_singleton.mpr rfl
  have key : ∀ (a b : Nat) (ha : a < 2) (hb : b < 2), a = b → (j ⟨a, ha⟩).val = (j ⟨b, hb⟩).val :=
    fun a b ha hb e => by subst e; rfl
  unfold DotDims.lhsIdx
  rw [dif_neg hb, dif_pos hn]
  simp only [Fin.val_cast]
  exact key _ _ _ _ (by simp [h.lb, h.ln])

/-- The right operand's row is the result's column. -/
theorem IsLastAxis.rhs_row (h : IsLastAxis D) (j : (⟨2, ![M, N]⟩ : Shape).Idx) (k : D.contr.Idx) :
    (D.rhsIdx j k 0).val = (j 1).val := by
  have hb : (0 : Fin (⟨2, ![N, K]⟩ : Shape).rank) ∉ D.rhsBatch := by rw [h.rb]; exact List.not_mem_nil
  have hn : (0 : Fin (⟨2, ![N, K]⟩ : Shape).rank) ∈ D.rhsNonContracting := by rw [h.rn]; exact List.mem_singleton.mpr rfl
  have key : ∀ (a b : Nat) (ha : a < 2) (hb : b < 2), a = b → (j ⟨a, ha⟩).val = (j ⟨b, hb⟩).val :=
    fun a b ha hb e => by subst e; rfl
  unfold DotDims.rhsIdx
  rw [dif_neg hb, dif_pos hn]
  simp only [Fin.val_cast]
  exact key _ _ _ _ (by simp [h.lb, h.ln, h.rn])

/-- The contraction index is one coordinate below `K`. -/
def IsLastAxis.contrEquiv (h : IsLastAxis D) : D.contr.Idx ≃ Fin K :=
  contrEquiv1 D K h.rank_contr h.size_contr

/-- The two operands' indices at result entry `(p, q)` and contraction coordinate `k`. -/
theorem IsLastAxis.lhsIdx_eq (h : IsLastAxis D) (p : Fin M) (q : Fin N) (k : Fin K) :
    D.lhsIdx (ix2 p q) (h.contrEquiv.symm k) = ix2 p k := by
  funext a
  apply Fin.ext
  match a with
  | ⟨0, _⟩ => exact h.lhs_row (ix2 p q) _
  | ⟨1, _⟩ =>
    show (D.lhsIdx (ix2 p q) (h.contrEquiv.symm k) 1).val = k.val
    rw [D.lhsIdx_val_of_single h.lc]
    exact contrEquiv1_symm_val D K h.rank_contr h.size_contr k

theorem IsLastAxis.rhsIdx_eq (h : IsLastAxis D) (p : Fin M) (q : Fin N) (k : Fin K) :
    D.rhsIdx (ix2 p q) (h.contrEquiv.symm k) = ix2 q k := by
  funext a
  apply Fin.ext
  match a with
  | ⟨0, _⟩ => exact h.rhs_row (ix2 p q) _
  | ⟨1, _⟩ =>
    show (D.rhsIdx (ix2 p q) (h.contrEquiv.symm k) 1).val = k.val
    rw [D.rhsIdx_val_of_single h.rc]
    exact contrEquiv1_symm_val D K h.rank_contr h.size_contr k

/-- The product into an accumulator, read at entry `(p, q)`: the accumulator there plus the sum over the shared last
    axis of the operands' products. -/
theorem matmul_apply (h : IsLastAxis D) {φ₁ φ₂ : FTy} (prec : Option ContractPrecision)
    (l : FVec Ideal ⟨2, ![M, K]⟩ φ₁) (r : FVec Ideal ⟨2, ![N, K]⟩ φ₂) (acc : FVec Ideal ⟨2, ![M, N]⟩ .f32)
    (p : Fin M) (q : Fin N) :
    FloatOps.matmul D prec l r acc (ix2 p q) = acc (ix2 p q) + ∑ k : Fin K, l (ix2 p k) * r (ix2 q k) := by
  rw [Ideal.matmul_apply, ← Equiv.sum_comp h.contrEquiv.symm]
  refine congrArg (acc (ix2 p q) + ·) (Finset.sum_congr rfl fun k _ => ?_)
  rw [h.lhsIdx_eq, h.rhsIdx_eq]

/-- Into the zero accumulator: the sum alone. -/
theorem matmul_zero_apply (h : IsLastAxis D) {φ₁ φ₂ : FTy} (prec : Option ContractPrecision)
    (l : FVec Ideal ⟨2, ![M, K]⟩ φ₁) (r : FVec Ideal ⟨2, ![N, K]⟩ φ₂) (p : Fin M) (q : Fin N) :
    FloatOps.matmul D prec l r (constant ⟨2, ![M, N]⟩ .f32 0x00000000#32) (ix2 p q)
      = ∑ k : Fin K, l (ix2 p k) * r (ix2 q k) := by
  rw [matmul_apply h]
  show Ideal.ofBits .f32 0x00000000#32 + _ = _
  rw [Ideal.ofBits_zero_f32, zero_add]

end Idealize.ShloMosaic.MatmulLastAxis

end
-- ==== Proof.LibMatmulPlain.lean ====
/-
  A plain matrix product (`p @ v`: an `M × K` left operand, a `K × N` right operand, an `M × N` result, dimension
  numbers `<[1], [0], [0], [1], [0, 0, 1, 1], [], []>`), read at one entry over the extended reals.

  Whatever record of dimension numbers carries those six lists, the left operand is read at row `p` of the result
  index and column `k` of the contraction, the right operand at row `k` and column `q`; the contraction index is
  one coordinate, so the sum over it is a sum over `Fin K`.  Into a zero accumulator the product's entry `(p, q)`
  is therefore `∑ k, l (p, k) · r (k, q)`; into any accumulator it is the accumulator's entry plus that sum.
-/
import Idealize.ShloMosaic.PureOps.Ideal
import Idealize.ShloMosaic.PureOps.Ideal.Laws
import Idealize.ShloMosaic.Lib.ValueIdx

noncomputable section

namespace Idealize.ShloMosaic.MatmulPlain

open Idealize.ShloMosaic Idealize.ShloMosaic.ValueIdx
open scoped BigOperators

variable {M N K : Nat}

/-- The six lists of dimension numbers of `p @ v`. -/
structure IsPlain (D : DotDims ⟨2, ![M, K]⟩ ⟨2, ![K, N]⟩ ⟨2, ![M, N]⟩) : Prop where
  lc : D.lhsContracting = [1]
  rc : D.rhsContracting = [0]
  ln : D.lhsNonContracting = [0]
  rn : D.rhsNonContracting = [1]
  lb : D.lhsBatch = []
  rb : D.rhsBatch = []

variable {D : DotDims ⟨2, ![M, K]⟩ ⟨2, ![K, N]⟩ ⟨2, ![M, N]⟩}

theorem IsPlain.rank_contr (h : IsPlain D) : D.contr.rank = 1 := by
  rw [D.rank_contr, h.lc]; rfl

theorem IsPlain.size_contr (h : IsPlain D) : D.contr.size ⟨0, by rw [h.rank_contr]; exact Nat.one_pos⟩ = K := by
  have e := D.size_contr 0 (by rw [h.lc]; exact Nat.one_pos)
  rw [e]
  simp only [h.lc]
  rfl

/-- The left operand's row is the result's row. -/
theorem IsPlain.lhs_row (h : IsPlain D) (j : (⟨2, ![M, N]⟩ : Shape).Idx) (k : D.contr.Idx) :
    (D.lhsIdx j k 0).val = (j 0).val := by
  have hb : (0 : Fin (⟨2, ![M, K]⟩ : Shape).rank) ∉ D.lhsBatch := by rw [h.lb]; exact List.not_mem_nil
  have hn : (0 : Fin (⟨2, ![M, K]⟩ : Shape).rank) ∈ D.lhsNonContracting := by rw [h.ln]; exact List.mem_singleton.mpr rfl
  have key : ∀ (a b : Nat) (ha : a < 2) (hb : b < 2), a = b → (j ⟨a, ha⟩).val = (j ⟨b, hb⟩).val :=
    fun a b ha hb e => by subst e; rfl
  unfold DotDims.lhsIdx
  rw [dif_neg hb, dif_pos hn]
  simp only [Fin.val_cast]
  exact key _ _ _ _ (by simp [h.lb, h.ln])

/-- The right operand's column is the result's column. -/
theorem IsPlain.rhs_col (h : IsPlain D) (j : (⟨2, ![M, N]⟩ : Shape).Idx) (k : D.contr.Idx) :
    (D.rhsIdx j k 1).val = (j 1).val := by
  have hb : (1 : Fin (⟨2, ![K, N]⟩ : Shape).rank) ∉ D.rhsBatch := by rw [h.rb]; exact List.not_mem_nil
  have hn : (1 : Fin (⟨2, ![K, N]⟩ : Shape).rank) ∈ D.rhsNonContracting := by rw [h.rn]; exact List.mem_singleton.mpr rfl
  have key : ∀ (a b : Nat) (ha : a < 2) (hb : b < 2), a = b → (j ⟨a, ha⟩).val = (j ⟨b, hb⟩).val :=
    fun a b ha hb e => by subst e; rfl
  unfold DotDims.rhsIdx
  rw [dif_neg hb, dif_pos hn]
  simp only [Fin.val_cast]
  exact key _ _ _ _ (by simp [h.lb, h.ln, h.rn])

/-- The contraction index is one coordinate below `K`. -/
def IsPlain.contrEquiv (h : IsPlain D) : D.contr.Idx ≃ Fin K :=
  contrEquiv1 D K h.rank_contr h.size_contr

/-- The two operands' indices at result entry `(p, q)` and contraction coordinate `k`. -/
theorem IsPlain.lhsIdx_eq (h : IsPlain D) (p : Fin M) (q : Fin N) (k : Fin K) :
    D.lhsIdx (ix2 p q) (h.contrEquiv.symm k) = ix2 p k := by
  funext a
  apply Fin.ext
  match a with
  | ⟨0, _⟩ => exact h.lhs_row (ix2 p q) _
  | ⟨1, _⟩ =>
    show (D.lhsIdx (ix2 p q) (h.contrEquiv.symm k) 1).val = k.val
    rw [D.lhsIdx_val_of_single h.lc]
    exact contrEquiv1_symm_val D K h.rank_contr h.size_contr k

theorem IsPlain.rhsIdx_eq (h : IsPlain D) (p : Fin M) (q : Fin N) (k : Fin K) :
    D.rhsIdx (ix2 p q) (h.contrEquiv.symm k) = ix2 k q := by
  funext a
  apply Fin.ext
  match a with
  | ⟨0, _⟩ =>
    show (D.rhsIdx (ix2 p q) (h.contrEquiv.symm k) 0).val = k.val
    rw [D.rhsIdx_val_of_single h.rc]
    exact contrEquiv1_symm_val D K h.rank_contr h.size_contr k
  | ⟨1, _⟩ => exact h.rhs_col (ix2 p q) _

/-- The product into an accumulator, read at entry `(p, q)`: the accumulator there plus the sum over the shared
    axis of the operands' products. -/
theorem matmul_apply (h : IsPlain D) {φ₁ φ₂ : FTy} (prec : Option ContractPrecision)
    (l : FVec Ideal ⟨2, ![M, K]⟩ φ₁) (r : FVec Ideal ⟨2, ![K, N]⟩ φ₂) (acc : FVec Ideal ⟨2, ![M, N]⟩ .f32)
    (p : Fin M) (q : Fin N) :
    FloatOps.matmul D prec l r acc (ix2 p q) = acc (ix2 p q) + ∑ k : Fin K, l (ix2 p k) * r (ix2 k q) := by
  rw [Ideal.matmul_apply, ← Equiv.sum_comp h.contrEquiv.symm]
  refine congrArg (acc (ix2 p q) + ·) (Finset.sum_congr rfl fun k _ => ?_)
  rw [h.lhsIdx_eq, h.rhsIdx_eq]

/-- Into the zero accumulator: the sum alone. -/
theorem matmul_zero_apply (h : IsPlain D) {φ₁ φ₂ : FTy} (prec : Option ContractPrecision)
    (l : FVec Ideal ⟨2, ![M, K]⟩ φ₁) (r : FVec Ideal ⟨2, ![K, N]⟩ φ₂) (p : Fin M) (q : Fin N) :
    FloatOps.matmul D prec l r (constant ⟨2, ![M, N]⟩ .f32 0x00000000#32) (ix2 p q)
      = ∑ k : Fin K, l (ix2 p k) * r (ix2 k q) := by
  rw [matmul_apply h]
  show Ideal.ofBits .f32 0x00000000#32 + _ = _
  rw [Ideal.ofBits_zero_f32, zero_add]

end Idealize.ShloMosaic.MatmulPlain

end
-- ==== Proof.Consts.lean ====
/-
  The float literals of the two programs, read as extended reals: the score scale one eighth, the divisor eight,
  the unit, minus infinity, and the finite fill value written under the mask.
-/
import Idealize.ShloMosaic.PureOps.Ideal
import Idealize.ShloMosaic.PureOps.Ideal.Laws

noncomputable section

namespace Cert.Attn.Consts

open Idealize.ShloMosaic

/-- The pattern of `0.125` is the real one eighth. -/
theorem ofBits_eighth : Ideal.ofBits .f32 0x3E000000#32 = ((1 / 8 : ℝ) : EReal) := by
  simp [Ideal.ofBits, Ideal.ieee, -EReal.coe_mul]; norm_num

/-- The pattern of `8.0` is the real eight. -/
theorem ofBits_eight : Ideal.ofBits .f32 0x41000000#32 = ((8 : ℝ) : EReal) := by
  simp [Ideal.ofBits, Ideal.ieee, -EReal.coe_mul]; norm_num

/-- The pattern of `1.0` is one. -/
theorem ofBits_one : Ideal.ofBits .f32 0x3F800000#32 = 1 := by
  simp [Ideal.ofBits, Ideal.ieee, -EReal.coe_mul]; norm_num

/-- The pattern `0xFF800000` is minus infinity. -/
theorem ofBits_negInf : Ideal.ofBits .f32 0xFF800000#32 = ⊥ := by
  simp [Ideal.ofBits, Ideal.ieee]

/-- The pattern `0x7F800000` is plus infinity. -/
theorem ofBits_posInf : Ideal.ofBits .f32 0x7F800000#32 = ⊤ := by
  simp [Ideal.ofBits, Ideal.ieee]

/-- The fill value under the mask is a real number (minus ten to the ninth), not an infinity. -/
theorem ofBits_fill_real : ∃ r : ℝ, Ideal.ofBits .f32 0xCE6E6B28#32 = (r : EReal) := by
  refine ⟨-1000000000, ?_⟩
  simp [Ideal.ofBits, Ideal.ieee, -EReal.coe_mul]; norm_num

end Cert.Attn.Consts

end
-- ==== Proof.KernelRow.lean ====
/-
  What the attention kernel's body computes at one grid point, entry by entry, over the extended reals.

  The body sees a query block `x0` of 512 rows, the head's whole key and value arrays `x1`, `x2` (2048 rows each) and
  the 512 rows `x15` of the mask that belong to the query block, every one with a leading unit axis.  Row `r` of the
  block has the scores

    s r c = fill                                   where the mask word at (r, c) is not zero,
    s r c = ∑ d, (x0[r, d] · 1/8) · x1[c, d]        elsewhere,

  the body's matrix of exponentials holds the softmax numerators `exp (s r c − max_c s r c)`, its column of
  reciprocals holds `1 / ∑ c, numerator`, the attention block is numerator times reciprocal, and the output
  block is `(∑ c, numerator r c · x2[c, d])` times the same reciprocal.
-/
import proofs.«157889_j7327214207255_2_alg».proof.Proof.Gen.KernelIdeal.Skeleton
import proofs.«157889_j7327214207255_2_alg».proof.Proof.LibSoftmaxRow
import proofs.«157889_j7327214207255_2_alg».proof.Proof.LibColumnLayout
import proofs.«157889_j7327214207255_2_alg».proof.Proof.LibMatmulLastAxis
import proofs.«157889_j7327214207255_2_alg».proof.Proof.LibMatmulPlain
import proofs.«157889_j7327214207255_2_alg».proof.Proof.Consts
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Row

open Cert.KernelIdeal Cert.KernelIdeal.Gen Idealize.ShloMosaic Idealize.ShloMosaic.ValueIdx Cert.Softmax

/-- The scores of row `r` of a query block: the fill value under the mask, the scaled dot product elsewhere. -/
def score (x0 : FVec Ideal S1x512x64 .f32) (x1 : FVec Ideal S1x2048x64 .f32) (x15 : IVec S1x512x2048 32)
    (r : Fin 512) (c : Fin 2048) : EReal :=
  Scalar.select (IntOp.cmpi .ne (x15 (ix3 (0 : Fin 1) r c)) 0#32) (Ideal.ofBits .f32 0xCE6E6B28#32)
    (∑ d : Fin 64, (x0 (ix3 (0 : Fin 1) r d) * Ideal.ofBits .f32 0x3E000000#32) * x1 (ix3 (0 : Fin 1) c d))

/-- The first product contracts the last axis of both operands. -/
theorem qk_lastAxis : MatmulLastAxis.IsLastAxis dot_S512x64_S2048x64_S512x2048_1_1_0_0_n_n :=
  ⟨rfl, rfl, rfl, rfl, rfl, rfl⟩

/-- The body's masked score matrix. -/
abbrev masked (x0 : FVec Ideal S1x512x64 .f32) (x1 : FVec Ideal S1x2048x64 .f32) (x15 : IVec S1x512x2048 32) :
    FVec Ideal S512x2048 .f32 :=
  select (cmpi .ne (shapeCast S512x2048 x15 shapeCasts_S1x512x2048_S512x2048) (constantI S512x2048 32 0#32))
    (broadcast S512x2048 (Scalar.ofBits (F := Ideal) .f32 0xCE6E6B28#32))
    (matmul dot_S512x64_S2048x64_S512x2048_1_1_0_0_n_n none
      (truncf .bf16 (mulf (shapeCast S512x64 x0 shapeCasts_S1x512x64_S512x64)
        (broadcast S512x64 (Scalar.ofBits (F := Ideal) .f32 0x3E000000#32))) bitsLt_bf16_f32)
      (truncf .bf16 (shapeCast S2048x64 x1 shapeCasts_S1x2048x64_S2048x64) bitsLt_bf16_f32)
      (constant S512x2048 .f32 0x00000000#32))

/-- The masked score matrix of the body, at entry `(r, c)`. -/
theorem masked_apply (x0 : FVec Ideal S1x512x64 .f32) (x1 : FVec Ideal S1x2048x64 .f32) (x15 : IVec S1x512x2048 32)
    (r : Fin 512) (c : Fin 2048) :
    masked x0 x1 x15 (ix2 r c)
      = score x0 x1 x15 r c := by
  unfold score
  show Scalar.select (IntOp.cmpi .ne (shapeCast S512x2048 x15 shapeCasts_S1x512x2048_S512x2048 (ix2 r c)) 0#32) _ _ = _
  rw [shapeCast_1ab_ab_apply]
  refine congrArg (Scalar.select _ _) ?_
  refine (MatmulLastAxis.matmul_zero_apply qk_lastAxis none _ _ r c).trans ?_
  refine Finset.sum_congr rfl fun d _ => ?_
  show (shapeCast S512x64 x0 shapeCasts_S1x512x64_S512x64 (ix2 r d) * _) * shapeCast S2048x64 x1 shapeCasts_S1x2048x64_S2048x64 (ix2 c d) = _
  rw [shapeCast_1ab_ab_apply, shapeCast_1ab_ab_apply]
  rfl

/-- The second product is a plain matrix product. -/
theorem pv_plain : MatmulPlain.IsPlain dot_S512x2048_S2048x64_S512x64_1_0_0_1_n_n :=
  ⟨rfl, rfl, rfl, rfl, rfl, rfl⟩

/-- A row maximum taken by the vector unit from minus infinity is the fold of `max` from `⊥` over the row. -/
theorem rowmax_apply (A : FVec Ideal S512x2048 .f32) (s : Fin 512 → Fin 2048 → EReal)
    (hA : ∀ r c, A (ix2 r c) = s r c) (r : Fin 512) :
    multiReduction .maximumf [1] S512 A 0xFF800000#32 reduces_S512x2048_S512 (.inl rfl) rfl (ix1 r) = rowMax (s r) := by
  refine (Ideal.multiReduction_maximumf_single A 0xFF800000#32 reduces_S512x2048_S512 (.inl rfl) rfl (ix1 r)).trans ?_
  unfold rowMax
  show Finset.fold max (Ideal.ofBits .f32 0xFF800000#32) _ (Finset.univ : Finset (Fin 2048)) = _
  rw [Cert.Attn.Consts.ofBits_negInf]
  refine congrArg (fun f => Finset.fold max ⊥ f (Finset.univ : Finset (Fin 2048))) (funext fun k => ?_)
  show A (reduces_S512x2048_S512.lift (ix1 r) k) = s r k
  rw [← hA r k]
  exact congrArg A (funext fun a => Fin.ext (by match a with | ⟨0, _⟩ => rfl | ⟨1, _⟩ => rfl))

/-- A row sum taken by the vector unit from zero is the sum over the row. -/
theorem rowsum_apply (A : FVec Ideal S512x2048 .f32) (s : Fin 512 → Fin 2048 → EReal)
    (hA : ∀ r c, A (ix2 r c) = s r c) (r : Fin 512) :
    multiReduction .add [1] S512 A 0x00000000#32 reduces_S512x2048_S512 (.inl rfl) rfl (ix1 r) = ∑ c, s r c := by
  refine (Ideal.multiReduction_add_single A 0x00000000#32 reduces_S512x2048_S512 (.inl rfl) rfl (ix1 r)).trans ?_
  show ∑ k : Fin 2048, A (reduces_S512x2048_S512.lift (ix1 r) k) = _
  refine Finset.sum_congr rfl fun k _ => ?_
  rw [← hA r k]
  exact congrArg A (funext fun a => Fin.ext (by match a with | ⟨0, _⟩ => rfl | ⟨1, _⟩ => rfl))

/-- The matrix of exponentials holds the softmax numerators of each row's scores. -/
theorem expmat_apply (x0 : FVec Ideal S1x512x64 .f32) (x1 : FVec Ideal S1x2048x64 .f32) (x15 : IVec S1x512x2048 32)
    (r : Fin 512) (c : Fin 2048) :
    k0_pay3 (F := Ideal) x0 x1 x15 (ix2 r c) = num (score x0 x1 x15 r) c := by
  show Ideal.exp (masked x0 x1 x15 (ix2 r c)
    - broadcastTo S512x2048 (shapeCast S512x1 (multiReduction .maximumf [1] S512 (masked x0 x1 x15) 0xFF800000#32
        reduces_S512x2048_S512 (.inl rfl) rfl) shapeCasts_S512_S512x1) broadcasts_S512x1_S512x2048 (ix2 r c)) = _
  rw [Cert.ColumnLayout.broadcastTo_a1_ab_apply, Cert.ColumnLayout.shapeCast_a_a1_apply,
    rowmax_apply _ (score x0 x1 x15) (masked_apply x0 x1 x15) r, masked_apply]
  rfl

/-- The column of reciprocals holds one over each row's softmax denominator. -/
theorem recip_apply (x0 : FVec Ideal S1x512x64 .f32) (x1 : FVec Ideal S1x2048x64 .f32) (x15 : IVec S1x512x2048 32)
    (r : Fin 512) :
    k0_pay4 (F := Ideal) x0 x1 x15 (ix2 r (0 : Fin 1))
      = Ideal.div (Ideal.ofBits .f32 0x3F800000#32) (den (score x0 x1 x15 r)) := by
  show Ideal.div (Ideal.ofBits .f32 0x3F800000#32)
    (shapeCast S512x1 (multiReduction .add [1] S512 (k0_pay3 (F := Ideal) x0 x1 x15) 0x00000000#32
      reduces_S512x2048_S512 (.inl rfl) rfl) shapeCasts_S512_S512x1 (ix2 r (0 : Fin 1))) = _
  rw [Cert.ColumnLayout.shapeCast_a_a1_apply,
    rowsum_apply _ (fun r c => num (score x0 x1 x15 r) c) (expmat_apply x0 x1 x15) r]
  rfl

/-- THE ATTENTION BLOCK: numerator times the reciprocal of the row's denominator. -/
theorem attn_block_apply (x0 : FVec Ideal S1x512x64 .f32) (x1 : FVec Ideal S1x2048x64 .f32) (x15 : IVec S1x512x2048 32)
    (u : Fin 1) (r : Fin 512) (c : Fin 2048) :
    k0_pay5 (F := Ideal) x0 x1 x15 (ix3 u r c)
      = num (score x0 x1 x15 r) c * Ideal.div (Ideal.ofBits .f32 0x3F800000#32) (den (score x0 x1 x15 r)) := by
  show shapeCast S1x512x2048 (mulf (k0_pay3 (F := Ideal) x0 x1 x15)
    (broadcastTo S512x2048 (k0_pay4 (F := Ideal) x0 x1 x15) broadcasts_S512x1_S512x2048))
    shapeCasts_S512x2048_S1x512x2048 (ix3 u r c) = _
  rw [shapeCast_ab_1ab_apply]
  show k0_pay3 (F := Ideal) x0 x1 x15 (ix2 r c)
    * broadcastTo S512x2048 (k0_pay4 (F := Ideal) x0 x1 x15) broadcasts_S512x1_S512x2048 (ix2 r c) = _
  rw [Cert.ColumnLayout.broadcastTo_a1_ab_apply, expmat_apply, recip_apply]

/-- THE OUTPUT BLOCK: the numerators' weighted sum of the value rows, times the same reciprocal. -/
theorem out_block_apply (x0 : FVec Ideal S1x512x64 .f32) (x1 x2 : FVec Ideal S1x2048x64 .f32) (x15 : IVec S1x512x2048 32)
    (u : Fin 1) (r : Fin 512) (d : Fin 64) :
    k0_pay1 (F := Ideal) (k0_pay2 (F := Ideal) x2) (k0_pay4 (F := Ideal) x0 x1 x15) (k0_pay6 (F := Ideal) x0 x1 x15) (ix3 u r d)
      = (∑ c : Fin 2048, num (score x0 x1 x15 r) c * x2 (ix3 (0 : Fin 1) c d))
        * Ideal.div (Ideal.ofBits .f32 0x3F800000#32) (den (score x0 x1 x15 r)) := by
  show shapeCast S1x512x64 (mulf
    (matmul dot_S512x2048_S2048x64_S512x64_1_0_0_1_n_n none (k0_pay6 (F := Ideal) x0 x1 x15) (k0_pay2 (F := Ideal) x2)
      (constant S512x64 .f32 0x00000000#32))
    (broadcastTo S512x64 (k0_pay4 (F := Ideal) x0 x1 x15) broadcasts_S512x1_S512x64))
    shapeCasts_S512x64_S1x512x64 (ix3 u r d) = _
  rw [shapeCast_ab_1ab_apply]
  show matmul dot_S512x2048_S2048x64_S512x64_1_0_0_1_n_n none (k0_pay6 (F := Ideal) x0 x1 x15) (k0_pay2 (F := Ideal) x2)
      (constant S512x64 .f32 0x00000000#32) (ix2 r d)
    * broadcastTo S512x64 (k0_pay4 (F := Ideal) x0 x1 x15) broadcasts_S512x1_S512x64 (ix2 r d) = _
  rw [Cert.ColumnLayout.broadcastTo_a1_ab_apply, recip_apply]
  refine congrArg (· * _) ?_
  refine (MatmulPlain.matmul_zero_apply pv_plain none _ _ r d).trans ?_
  refine Finset.sum_congr rfl fun c _ => ?_
  show k0_pay3 (F := Ideal) x0 x1 x15 (ix2 r c) * shapeCast S2048x64 x2 shapeCasts_S1x2048x64_S2048x64 (ix2 c d) = _
  rw [expmat_apply, shapeCast_1ab_ab_apply]

end Cert.KernelIdeal.Row

end
-- ==== Proof.KernelPoint.lean ====
/-
  The kernel's two output arrays `[48, 2048, ·]` as functions of the arrays the launch reads — the flattened
  queries, keys and values `[48, 2048, 64]` (48 = batch · head) and the mask widened to words `[4, 2048, 2048]` —
  and the proof that what ONE grid point computes is a block of them.

  Grid point `(bh, qi)` sees query rows `512 · qi … 512 · qi + 511` of head `bh`, all of that head's keys and values,
  and the same 512 rows of the mask of batch `bh / 12`.  Row `r` of its blocks is therefore row `512 · qi + r` of
  the arrays, with the same scores, the same softmax numerators and denominator, and the same products.
-/
import proofs.«157889_j7327214207255_2_alg».proof.Proof.KernelRow

noncomputable section

namespace Cert.KernelIdeal.Point

open Cert.KernelIdeal Cert.KernelIdeal.Gen Idealize.ShloMosaic Idealize.ShloMosaic.ValueIdx Cert.Softmax
open Cert.KernelIdeal.Row

/-- The batch of a flattened batch-head index (twelve heads per batch). -/
def batchOf (bh : Fin 48) : Fin 4 := ⟨bh.val / 12, by have := bh.isLt; omega⟩

/-- Row `r` of query tile `qi`. -/
def tileRow (qi : Fin 4) (r : Fin 512) : Fin 2048 := ⟨512 * qi.val + r.val, by have := qi.isLt; have := r.isLt; omega⟩

variable (Q K W : FVec Ideal S48x2048x64 .f32) (Mk : IVec S4x2048x2048 32)

/-- The kernel's score of query position `r` against key position `c` in head `bh`. -/
def kscore (bh : Fin 48) (r c : Fin 2048) : EReal :=
  Scalar.select (IntOp.cmpi .ne (Mk (ix3 (batchOf bh) r c)) 0#32) (Ideal.ofBits .f32 0xCE6E6B28#32)
    (∑ d : Fin 64, (Q (ix3 bh r d) * Ideal.ofBits .f32 0x3E000000#32) * K (ix3 bh c d))

/-- One over the softmax denominator of a row. -/
def krecip (bh : Fin 48) (r : Fin 2048) : EReal :=
  Ideal.div (Ideal.ofBits .f32 0x3F800000#32) (den (kscore Q K Mk bh r))

/-- The kernel's attention array. -/
def kattn : S48x2048x2048.Idx → EReal :=
  fun i => num (kscore Q K Mk (i 0) (i 1)) (i 2) * krecip Q K Mk (i 0) (i 1)

/-- The kernel's output array. -/
def kout : S48x2048x64.Idx → EReal :=
  fun i => (∑ c : Fin 2048, num (kscore Q K Mk (i 0) (i 1)) c * W (ix3 (i 0) c (i 2))) * krecip Q K Mk (i 0) (i 1)

theorem kattn_apply (bh : Fin 48) (r c : Fin 2048) :
    kattn Q K Mk (ix3 bh r c) = num (kscore Q K Mk bh r) c * krecip Q K Mk bh r := rfl

theorem kout_apply (bh : Fin 48) (r : Fin 2048) (d : Fin 64) :
    kout Q K W Mk (ix3 bh r d) = (∑ c : Fin 2048, num (kscore Q K Mk bh r) c * W (ix3 bh c d)) * krecip Q K Mk bh r := rfl

variable (X0 : FVec Ideal S1x512x64 .f32) (X1 X2 : FVec Ideal S1x2048x64 .f32) (X15 : IVec S1x512x2048 32)
variable (bh : Fin 48) (qi : Fin 4)

/-- The block's scores are the array's, row `512 · qi + r`. -/
theorem score_eq
    (h0 : ∀ (r : Fin 512) (d : Fin 64), X0 (ix3 (0 : Fin 1) r d) = Q (ix3 bh (tileRow qi r) d))
    (h1 : ∀ (c : Fin 2048) (d : Fin 64), X1 (ix3 (0 : Fin 1) c d) = K (ix3 bh c d))
    (h15 : ∀ (r : Fin 512) (c : Fin 2048), X15 (ix3 (0 : Fin 1) r c) = Mk (ix3 (batchOf bh) (tileRow qi r) c))
    (r : Fin 512) : score X0 X1 X15 r = kscore Q K Mk bh (tileRow qi r) := by
  funext c
  unfold score kscore
  rw [h15 r c]
  refine congrArg (Scalar.select _ _) (Finset.sum_congr rfl fun d _ => ?_)
  rw [h0 r d, h1 c d]

/-- THE ATTENTION BLOCK of point `(bh, qi)` is the attention array at the block's place. -/
theorem attn_point
    (h0 : ∀ (r : Fin 512) (d : Fin 64), X0 (ix3 (0 : Fin 1) r d) = Q (ix3 bh (tileRow qi r) d))
    (h1 : ∀ (c : Fin 2048) (d : Fin 64), X1 (ix3 (0 : Fin 1) c d) = K (ix3 bh c d))
    (h15 : ∀ (r : Fin 512) (c : Fin 2048), X15 (ix3 (0 : Fin 1) r c) = Mk (ix3 (batchOf bh) (tileRow qi r) c))
    (u : Fin 1) (r : Fin 512) (c : Fin 2048) :
    k0_pay5 (F := Ideal) X0 X1 X15 (ix3 u r c) = kattn Q K Mk (ix3 bh (tileRow qi r) c) := by
  rw [attn_block_apply, kattn_apply, score_eq Q K Mk X0 X1 X15 bh qi h0 h1 h15 r]
  rfl

/-- THE OUTPUT BLOCK of point `(bh, qi)` is the output array at the block's place. -/
theorem out_point
    (h0 : ∀ (r : Fin 512) (d : Fin 64), X0 (ix3 (0 : Fin 1) r d) = Q (ix3 bh (tileRow qi r) d))
    (h1 : ∀ (c : Fin 2048) (d : Fin 64), X1 (ix3 (0 : Fin 1) c d) = K (ix3 bh c d))
    (h2 : ∀ (c : Fin 2048) (d : Fin 64), X2 (ix3 (0 : Fin 1) c d) = W (ix3 bh c d))
    (h15 : ∀ (r : Fin 512) (c : Fin 2048), X15 (ix3 (0 : Fin 1) r c) = Mk (ix3 (batchOf bh) (tileRow qi r) c))
    (u : Fin 1) (r : Fin 512) (d : Fin 64) :
    k0_pay1 (F := Ideal) (k0_pay2 (F := Ideal) X2) (k0_pay4 (F := Ideal) X0 X1 X15) (k0_pay6 (F := Ideal) X0 X1 X15) (ix3 u r d)
      = kout Q K W Mk (ix3 bh (tileRow qi r) d) := by
  rw [out_block_apply, kout_apply, score_eq Q K Mk X0 X1 X15 bh qi h0 h1 h15 r]
  refine congrArg (· * _) (Finset.sum_congr rfl fun c _ => ?_)
  rw [h2 c d]

end Cert.KernelIdeal.Point

end
-- ==== Proof.KernelArrays.lean ====
/-
  From blocks to arrays: after the whole grid has run, the kernel's two output arrays `[48, 2048, ·]` are the
  functions `kout` and `kattn` of the arrays the launch reads, and the program's two results are those arrays cast
  back to `[4, 12, 2048, ·]`.

  Grid point `t` has coordinates `(bh, qi)`.  Its query, output and attention blocks are block `(bh, qi, 0)` of
  their arrays (512 rows from row `512 · qi` of head `bh`), its key and value blocks are block `(bh, 0, 0)` (the whole
  head), its mask block is block `(bh / 12, 0, 0)` (the whole batch), of which the body loads the rows from
  `512 · qi`.  So what the point writes back is the block of `kout` / `kattn` at its place; every index of the two
  output arrays lies in the block of the point `(i₀, i₁ / 512)`; hence the arrays end at `kout` and `kattn`.
-/
import proofs.«157889_j7327214207255_2_alg».proof.Proof.Gen.KernelIdeal.Frame
import proofs.«157889_j7327214207255_2_alg».proof.Proof.BodyStores
import proofs.«157889_j7327214207255_2_alg».proof.Proof.KernelPoint
import Idealize.ShloMosaic.Lib.Pipeline.Value
import Idealize.ShloMosaic.Lib.StableHlo.Run
import Idealize.ShloMosaic.Lib.Tactic

noncomputable section

namespace Cert.KernelIdeal.Arrays

open Cert.KernelIdeal Cert.KernelIdeal.Gen Idealize.ShloMosaic Idealize.ShloMosaic.TcCoe Idealize.SL.Sem
open Idealize.ShloMosaic.Pipeline (Dat)
open Idealize.ShloMosaic.ValueIdx Cert.KernelIdeal.Point

variable (m : (ℓ : Loc nD τ sig) → Buf (Elt Ideal) ℓ) (ρ : Dev nD → PrngReg)

/-- Two arrays of rank three agree when they agree at every triple of coordinates. -/
theorem funext_ix3 {α : Type} {n0 n1 n2 : Nat} (f g : (⟨3, ![n0, n1, n2]⟩ : Shape).Idx → α)
    (h : ∀ (u : Fin n0) (r : Fin n1) (c : Fin n2), f (ix3 u r c) = g (ix3 u r c)) : f = g :=
  funext fun y => by rw [eq_ix3 y]; exact h _ _ _

/-- The six index maps over the grid, relative to the attention window's: the query and output windows move with it,
    the key and value windows follow its head, the mask window follows the head's batch, and the point's second
    coordinate is the query tile. -/
theorem idx_facts : ∀ t : Fin cfg0.N,
    win0_0.index t (0 : Fin 3) = win0_5.index t (0 : Fin 3) ∧ win0_0.index t (1 : Fin 3) = win0_5.index t (1 : Fin 3)
    ∧ win0_0.index t (2 : Fin 3) = 0
    ∧ win0_1.index t (0 : Fin 3) = win0_5.index t (0 : Fin 3) ∧ win0_1.index t (1 : Fin 3) = 0 ∧ win0_1.index t (2 : Fin 3) = 0
    ∧ win0_2.index t (0 : Fin 3) = win0_5.index t (0 : Fin 3) ∧ win0_2.index t (1 : Fin 3) = 0 ∧ win0_2.index t (2 : Fin 3) = 0
    ∧ win0_3.index t (0 : Fin 3) = win0_5.index t (0 : Fin 3) / 12 ∧ win0_3.index t (1 : Fin 3) = 0 ∧ win0_3.index t (2 : Fin 3) = 0
    ∧ win0_4.index t (0 : Fin 3) = win0_5.index t (0 : Fin 3) ∧ win0_4.index t (1 : Fin 3) = win0_5.index t (1 : Fin 3)
    ∧ win0_4.index t (2 : Fin 3) = 0
    ∧ win0_5.index t (2 : Fin 3) = 0 ∧ win0_5.index t (0 : Fin 3) < 48 ∧ win0_5.index t (1 : Fin 3) < 4
    ∧ ((grid0.coords t) (1 : Fin 2)).val = win0_5.index t (1 : Fin 3) :=
  (by decide +kernel : ∀ t : Fin grid0.N, _)

/-- Every (head, query tile) is some point's. -/
theorem idx_onto : ∀ (q0 : Fin 48) (q1 : Fin 4), ∃ t : Fin cfg0.N, win0_5.index t = ![q0.val, q1.val, 0] :=
  (by decide +kernel : ∀ (q0 : Fin 48) (q1 : Fin 4), ∃ t : Fin grid0.N, win0_5.index t = ![q0.val, q1.val, 0])

/-! ## The input blocks, read where the arrays hold them -/

/-- The query block. -/
theorem q_block (c : Dev nD) (t : Fin cfg0.N) (bh : Fin 48) (qi : Fin 4)
    (e0 : win0_0.index t (0 : Fin 3) = bh.val) (e1 : win0_0.index t (1 : Fin 3) = qi.val) (e2 : win0_0.index t (2 : Fin 3) = 0)
    (r : Fin 512) (d : Fin 64) :
    (iblk m c 0 t : FVec Ideal S1x512x64 .f32) (ix3 (0 : Fin 1) r d) = V m c main_v0 (ix3 bh (tileRow qi r) d) := by
  unfold iblk
  rw [View.read_apply]
  show V m c main_v0 _ = V m c main_v0 _
  refine congrArg (V m c main_v0) (funext fun a => Fin.ext ?_)
  match a with
  | ⟨0, _⟩ => show win0_0.index t (0 : Fin 3) * 1 + 1 * 0 = bh.val; omega
  | ⟨1, _⟩ => show win0_0.index t (1 : Fin 3) * 512 + 1 * r.val = 512 * qi.val + r.val; omega
  | ⟨2, _⟩ => show win0_0.index t (2 : Fin 3) * 64 + 1 * d.val = d.val; omega

/-- The key block: the whole head. -/
theorem k_block (c : Dev nD) (t : Fin cfg0.N) (bh : Fin 48)
    (e0 : win0_1.index t (0 : Fin 3) = bh.val) (e1 : win0_1.index t (1 : Fin 3) = 0) (e2 : win0_1.index t (2 : Fin 3) = 0)
    (k : Fin 2048) (d : Fin 64) :
    (iblk m c 1 t : FVec Ideal S1x2048x64 .f32) (ix3 (0 : Fin 1) k d) = V m c main_v1 (ix3 bh k d) := by
  unfold iblk
  rw [View.read_apply]
  show V m c main_v1 _ = V m c main_v1 _
  refine congrArg (V m c main_v1) (funext fun a => Fin.ext ?_)
  match a with
  | ⟨0, _⟩ => show win0_1.index t (0 : Fin 3) * 1 + 1 * 0 = bh.val; omega
  | ⟨1, _⟩ => show win0_1.index t (1 : Fin 3) * 2048 + 1 * k.val = k.val; omega
  | ⟨2, _⟩ => show win0_1.index t (2 : Fin 3) * 64 + 1 * d.val = d.val; omega

/-- The value block: the whole head. -/
theorem v_block (c : Dev nD) (t : Fin cfg0.N) (bh : Fin 48)
    (e0 : win0_2.index t (0 : Fin 3) = bh.val) (e1 : win0_2.index t (1 : Fin 3) = 0) (e2 : win0_2.index t (2 : Fin 3) = 0)
    (k : Fin 2048) (d : Fin 64) :
    (iblk m c 2 t : FVec Ideal S1x2048x64 .f32) (ix3 (0 : Fin 1) k d) = V m c main_v2 (ix3 bh k d) := by
  unfold iblk
  rw [View.read_apply]
  show V m c main_v2 _ = V m c main_v2 _
  refine congrArg (V m c main_v2) (funext fun a => Fin.ext ?_)
  match a with
  | ⟨0, _⟩ => show win0_2.index t (0 : Fin 3) * 1 + 1 * 0 = bh.val; omega
  | ⟨1, _⟩ => show win0_2.index t (1 : Fin 3) * 2048 + 1 * k.val = k.val; omega
  | ⟨2, _⟩ => show win0_2.index t (2 : Fin 3) * 64 + 1 * d.val = d.val; omega

/-- The rows of the mask block the body loads: rows `512 · qi …` of the batch's mask. -/
theorem mask_block (c : Dev nD) (t : Fin cfg0.N) (bh : Fin 48) (qi : Fin 4)
    (e0 : win0_3.index t (0 : Fin 3) = bh.val / 12) (e1 : win0_3.index t (1 : Fin 3) = 0) (e2 : win0_3.index t (2 : Fin 3) = 0)
    (eq : ((grid0.coords t) (1 : Fin 2)).val = qi.val) (r : Fin 512) (k : Fin 2048) :
    (BodyStores.maskRows (grid0.coords t) (iblk m c 3 t) : IVec S1x512x2048 32) (ix3 (0 : Fin 1) r k)
      = V m c main_v3 (ix3 (batchOf bh) (tileRow qi r) k) := by
  have hoff := k0_off1_eq (grid0.coords t)
  have h0 : k0_off1 (grid0.coords t) (0 : Fin 3) = 0 := by rw [hoff]; rfl
  have h1 : k0_off1 (grid0.coords t) (1 : Fin 3) = 512 * qi.val := by rw [hoff, ← eq]; rfl
  have h2 : k0_off1 (grid0.coords t) (2 : Fin 3) = 0 := by rw [hoff]; rfl
  show (iblk m c 3 t : IVec S1x2048x2048 32)
    ((Rect.unit (s := S1x2048x2048) (k0_off1 (grid0.coords t)) S1x512x2048.size (k0_off1_inb (grid0.coords t))).idx (ix3 (0 : Fin 1) r k)) = _
  unfold iblk
  rw [View.read_apply]
  show V m c main_v3 _ = V m c main_v3 _
  refine congrArg (V m c main_v3) (funext fun a => Fin.ext ?_)
  match a with
  | ⟨0, _⟩ =>
    show win0_3.index t (0 : Fin 3) * 1 + 1 * (k0_off1 (grid0.coords t) (0 : Fin 3) + 1 * 0) = bh.val / 12
    omega
  | ⟨1, _⟩ =>
    show win0_3.index t (1 : Fin 3) * 2048 + 1 * (k0_off1 (grid0.coords t) (1 : Fin 3) + 1 * r.val) = 512 * qi.val + r.val
    omega
  | ⟨2, _⟩ =>
    show win0_3.index t (2 : Fin 3) * 2048 + 1 * (k0_off1 (grid0.coords t) (2 : Fin 3) + 1 * k.val) = k.val
    omega

/-! ## What a point writes back -/

/-- WHAT POINT `t` WRITES BACK to the attention array is block `t` of `kattn` of the arrays as the launch finds them. -/
theorem attn_flushed (c : Dev nD) (t : Fin cfg0.N) :
    (dats m 0 c).flushed 5 t
      = ((cfg0.win 5).blk t).view.read (Elt Ideal) (kattn (V m c main_v0) (V m c main_v1) (V m c main_v3)) := by
  show (cfg0.win 5).cut (grid0.coords t) ((dats m 0 c).after 5 t) = _
  rw [after0_5]
  unfold outsAt0
  dsimp only
  rw [BodyStores.attn_store]
  obtain ⟨f00, f01, f02, f10, f11, f12, f20, f21, f22, f30, f31, f32, f40, f41, f42, f52, hb, hq, hg⟩ := idx_facts t
  refine funext_ix3 (n0 := 1) (n1 := 512) (n2 := 2048) _ _ fun u r k => ?_
  rw [View.read_apply]
  have hemb : ((cfg0.win 5).blk t).view.emb (ix3 u r k)
      = ix3 (⟨win0_5.index t (0 : Fin 3), hb⟩ : Fin 48) (tileRow ⟨win0_5.index t (1 : Fin 3), hq⟩ r) k := by
    funext a; apply Fin.ext
    have hu : u.val = 0 := by omega
    match a with
    | ⟨0, _⟩ => show win0_5.index t (0 : Fin 3) * 1 + 1 * u.val = win0_5.index t (0 : Fin 3); omega
    | ⟨1, _⟩ => show win0_5.index t (1 : Fin 3) * 512 + 1 * r.val = 512 * win0_5.index t (1 : Fin 3) + r.val; omega
    | ⟨2, _⟩ => show win0_5.index t (2 : Fin 3) * 2048 + 1 * k.val = k.val; omega
  rw [hemb]
  exact attn_point (V m c main_v0) (V m c main_v1) (V m c main_v3) (iblk m c 0 t) (iblk m c 1 t)
    (BodyStores.maskRows (grid0.coords t) (iblk m c 3 t)) ⟨win0_5.index t (0 : Fin 3), hb⟩ ⟨win0_5.index t (1 : Fin 3), hq⟩
    (q_block m c t _ _ f00 f01 f02) (k_block m c t _ f10 f11 f12) (mask_block m c t _ _ f30 f31 f32 hg) u r k

/-- WHAT POINT `t` WRITES BACK to the output array is block `t` of `kout`. -/
theorem out_flushed (c : Dev nD) (t : Fin cfg0.N) :
    (dats m 0 c).flushed 4 t
      = ((cfg0.win 4).blk t).view.read (Elt Ideal) (kout (V m c main_v0) (V m c main_v1) (V m c main_v2) (V m c main_v3)) := by
  show (cfg0.win 4).cut (grid0.coords t) ((dats m 0 c).after 4 t) = _
  rw [after0_4]
  unfold outsAt0
  dsimp only
  rw [BodyStores.out_store]
  obtain ⟨f00, f01, f02, f10, f11, f12, f20, f21, f22, f30, f31, f32, f40, f41, f42, f52, hb, hq, hg⟩ := idx_facts t
  refine funext_ix3 (n0 := 1) (n1 := 512) (n2 := 64) _ _ fun u r d => ?_
  rw [View.read_apply]
  have hemb : ((cfg0.win 4).blk t).view.emb (ix3 u r d)
      = ix3 (⟨win0_5.index t (0 : Fin 3), hb⟩ : Fin 48) (tileRow ⟨win0_5.index t (1 : Fin 3), hq⟩ r) d := by
    funext a; apply Fin.ext
    have hu : u.val = 0 := by omega
    match a with
    | ⟨0, _⟩ => show win0_4.index t (0 : Fin 3) * 1 + 1 * u.val = win0_5.index t (0 : Fin 3); omega
    | ⟨1, _⟩ => show win0_4.index t (1 : Fin 3) * 512 + 1 * r.val = 512 * win0_5.index t (1 : Fin 3) + r.val; omega
    | ⟨2, _⟩ => show win0_4.index t (2 : Fin 3) * 64 + 1 * d.val = d.val; omega
  rw [hemb]
  exact out_point (V m c main_v0) (V m c main_v1) (V m c main_v2) (V m c main_v3) (iblk m c 0 t) (iblk m c 1 t) (iblk m c 2 t)
    (BodyStores.maskRows (grid0.coords t) (iblk m c 3 t)) ⟨win0_5.index t (0 : Fin 3), hb⟩ ⟨win0_5.index t (1 : Fin 3), hq⟩
    (q_block m c t _ _ f00 f01 f02) (k_block m c t _ f10 f11 f12) (v_block m c t _ f20 f21 f22)
    (mask_block m c t _ _ f30 f31 f32 hg) u r d

/-! ## The blocks tile the arrays -/

/-- An index of the attention array is in point `t`'s block iff each coordinate is in the block's range. -/
theorem attn_mem_blk (t : Fin cfg0.N) (i : S48x2048x2048.Idx) :
    i ∈ ((cfg0.win 5).blk t).view.set ↔ ∀ a : Fin 3, win0_5.index t a * S1x512x2048.size a ≤ (i a).val
      ∧ (i a).val < win0_5.index t a * S1x512x2048.size a + S1x512x2048.size a := by
  show i ∈ ((View.whole main_v4_1).slice (win0_5.rect t)).set ↔ _
  rw [View.set_slice_whole, Rect.mem_set_unit]
  exact Iff.rfl

/-- The same for the output array. -/
theorem out_mem_blk (t : Fin cfg0.N) (i : S48x2048x64.Idx) :
    i ∈ ((cfg0.win 4).blk t).view.set ↔ ∀ a : Fin 3, win0_4.index t a * S1x512x64.size a ≤ (i a).val
      ∧ (i a).val < win0_4.index t a * S1x512x64.size a + S1x512x64.size a := by
  show i ∈ ((View.whole main_v4_0).slice (win0_4.rect t)).set ↔ _
  rw [View.set_slice_whole, Rect.mem_set_unit]
  exact Iff.rfl

/-- Every index of the attention array is in the block of the point `(i₀, i₁ / 512)`. -/
theorem attn_cover (i : S48x2048x2048.Idx) :
    ∃ t : Fin cfg0.N, (cfg0.win 5).flush t = true ∧ i ∈ ((cfg0.win 5).blk t).view.set := by
  have hi0 : (i 0).val < 48 := (i 0).isLt
  have hi1 : (i 1).val < 2048 := (i 1).isLt
  have hi2 : (i 2).val < 2048 := (i 2).isLt
  obtain ⟨t, ht⟩ := idx_onto ⟨(i 0).val, hi0⟩ ⟨(i 1).val / 512, by omega⟩
  have q0 : win0_5.index t (0 : Fin 3) = (i 0).val := congrFun ht 0
  have q1 : win0_5.index t (1 : Fin 3) = (i 1).val / 512 := congrFun ht 1
  have q2 : win0_5.index t (2 : Fin 3) = 0 := congrFun ht 2
  refine ⟨t, flush0_5 t, ?_⟩
  rw [attn_mem_blk]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 512 ≤ (i 1).val ∧ (i 1).val < win0_5.index t (1 : Fin 3) * 512 + 512; omega
  | ⟨2, _⟩ => show win0_5.index t (2 : Fin 3) * 2048 ≤ (i 2).val ∧ (i 2).val < win0_5.index t (2 : Fin 3) * 2048 + 2048; omega

/-- Every index of the output array is in the block of the point `(i₀, i₁ / 512)`. -/
theorem out_cover (i : S48x2048x64.Idx) :
    ∃ t : Fin cfg0.N, (cfg0.win 4).flush t = true ∧ i ∈ ((cfg0.win 4).blk t).view.set := by
  have hi0 : (i 0).val < 48 := (i 0).isLt
  have hi1 : (i 1).val < 2048 := (i 1).isLt
  have hi2 : (i 2).val < 64 := (i 2).isLt
  obtain ⟨t, ht⟩ := idx_onto ⟨(i 0).val, hi0⟩ ⟨(i 1).val / 512, by omega⟩
  obtain ⟨f00, f01, f02, f10, f11, f12, f20, f21, f22, f30, f31, f32, f40, f41, f42, f52, hb, hq, hg⟩ := idx_facts t
  have q0 : win0_5.index t (0 : Fin 3) = (i 0).val := congrFun ht 0
  have q1 : win0_5.index t (1 : Fin 3) = (i 1).val / 512 := congrFun ht 1
  refine ⟨t, flush0_4 t, ?_⟩
  rw [out_mem_blk]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 512 ≤ (i 1).val ∧ (i 1).val < win0_4.index t (1 : Fin 3) * 512 + 512; omega
  | ⟨2, _⟩ => show win0_4.index t (2 : Fin 3) * 64 ≤ (i 2).val ∧ (i 2).val < win0_4.index t (2 : Fin 3) * 64 + 64; omega

/-- THE ATTENTION ARRAY after the run. -/
theorem attn_final (c : Dev nD) :
    (dats m 0 c).arrAt 5 cfg0.N = kattn (V m c main_v0) (V m c main_v1) (V m c main_v3) :=
  (dats m 0 c).arrAt_eq_of_cover 5 _ (fun t _ => attn_flushed m c t) attn_cover

/-- THE OUTPUT ARRAY after the run. -/
theorem out_final (c : Dev nD) :
    (dats m 0 c).arrAt 4 cfg0.N = kout (V m c main_v0) (V m c main_v1) (V m c main_v2) (V m c main_v3) :=
  (dats m 0 c).arrAt_eq_of_cover 4 _ (fun t _ => out_flushed m c t) out_cover

end Cert.KernelIdeal.Arrays

end
-- ==== Proof.KernelRun.lean ====
/-
  The kernel program's run, read: its two results are the arrays `kout` and `kattn` of the flattened arguments,
  cast back to `[4, 12, 2048, ·]`, and its arguments end unchanged.

  Before the launch the program flattens the three float arguments and widens the mask's bits to words; after it,
  it casts the launch's two output arrays back.  Neither stretch touches anything else.
-/
import proofs.«157889_j7327214207255_2_alg».proof.Proof.KernelArrays

noncomputable section

namespace Cert.KernelIdeal.Run

open Cert.KernelIdeal Cert.KernelIdeal.Gen Idealize.ShloMosaic Idealize.ShloMosaic.TcCoe Idealize.SL.Sem
open Idealize.ShloMosaic.Pipeline (Dat)
open Idealize.ShloMosaic.ValueIdx Cert.KernelIdeal.Point Cert.KernelIdeal.Arrays

variable (m : (ℓ : Loc nD τ sig) → Buf (Elt Ideal) ℓ) (ρ : Dev nD → PrngReg)

/-- The flattened queries, as the launch finds them. -/
theorem V_q (c : Dev nD) : (V m c main_v0 : FVec Ideal S48x2048x64 .f32)
    = shapeCast S48x2048x64 (m ((c : Thread nD τ).loc main_arg0)) shapeCasts_S4x12x2048x64_S48x2048x64 := by
  show StableHlo.after hostOps0 (fun b => m (c, b)) (Proc.devRef .tc main_v0) = _
  after_results
  rfl

/-- The flattened keys. -/
theorem V_k (c : Dev nD) : (V m c main_v1 : FVec Ideal S48x2048x64 .f32)
    = shapeCast S48x2048x64 (m ((c : Thread nD τ).loc main_arg1)) shapeCasts_S4x12x2048x64_S48x2048x64 := by
  show StableHlo.after hostOps0 (fun b => m (c, b)) (Proc.devRef .tc main_v1) = _
  after_results
  rfl

/-- The flattened values. -/
theorem V_v (c : Dev nD) : (V m c main_v2 : FVec Ideal S48x2048x64 .f32)
    = shapeCast S48x2048x64 (m ((c : Thread nD τ).loc main_arg2)) shapeCasts_S4x12x2048x64_S48x2048x64 := by
  show StableHlo.after hostOps0 (fun b => m (c, b)) (Proc.devRef .tc main_v2) = _
  after_results
  rfl

/-- The mask, widened to words. -/
theorem V_mask (c : Dev nD) : (V m c main_v3 : IVec S4x2048x2048 32)
    = extui 32 (m ((c : Thread nD τ).loc main_arg3)) natLt_1_32 := by
  show StableHlo.after hostOps0 (fun b => m (c, b)) (Proc.devRef .tc main_v3) = _
  after_results

/-- The first result: the launch's output array cast back. -/
theorem out_result (c : Dev nD) : Pipeline.afterTail₀ cfgs (dats m) 0 (V0 m) [hostOps1] c main_v5
    = shapeCast S4x12x2048x64 (kout (V m c main_v0) (V m c main_v1) (V m c main_v2) (V m c main_v3))
        shapeCasts_S48x2048x64_S4x12x2048x64 := by
  unfold Pipeline.afterTail₀
  show StableHlo.after hostOps1 _ (Proc.devRef .tc main_v5) = _
  after_results
  rw [(Pipeline.withArrays_arr spec0 launch0.win.arr_inj c _ _ 4).trans (out_final m c)]
  rfl

/-- The second result: the launch's attention array cast back. -/
theorem attn_result (c : Dev nD) : Pipeline.afterTail₀ cfgs (dats m) 0 (V0 m) [hostOps1] c main_v6
    = shapeCast S4x12x2048x2048 (kattn (V m c main_v0) (V m c main_v1) (V m c main_v3))
        shapeCasts_S48x2048x2048_S4x12x2048x2048 := by
  unfold Pipeline.afterTail₀
  show StableHlo.after hostOps1 _ (Proc.devRef .tc main_v6) = _
  after_results
  rw [(Pipeline.withArrays_arr spec0 launch0.win.arr_inj c _ _ 5).trans (attn_final m c)]
  rfl

/-- THE RUN, READ: every weakly fair execution of the kernel program terminates with its two results at the
    launch's arrays cast back, and its arguments unchanged. -/
theorem run : θ_run defs (onTc (τ := τ) (main (F := Ideal))) ⟨m, fun _ => 0, ρ⟩ fun r => ∀ c : Dev nD,
      r.2.mem ((c : Thread nD τ).loc main_v5)
        = shapeCast S4x12x2048x64 (kout (V m c main_v0) (V m c main_v1) (V m c main_v2) (V m c main_v3))
            shapeCasts_S48x2048x64_S4x12x2048x64
      ∧ r.2.mem ((c : Thread nD τ).loc main_v6)
        = shapeCast S4x12x2048x2048 (kattn (V m c main_v0) (V m c main_v1) (V m c main_v3))
            shapeCasts_S48x2048x2048_S4x12x2048x2048
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c =>
    ⟨((h c).2 main_v5 (Pipeline.mem_restRefs_of main_v5 (by decide) (by decide))).trans (out_result m c),
      ((h c).2 main_v6 (Pipeline.mem_restRefs_of main_v6 (by decide) (by decide))).trans (attn_result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Run

end
-- ==== Proof.AttentionSpec.lean ====
/-
  Masked scaled-dot-product attention as ONE function of the four argument arrays, entry by entry, over the
  extended reals: queries, keys and values `[4, 12, 2048, 64]` (batch, head, position, feature) and a mask
  `[4, 2048, 2048]` (batch, query position, key position) shared by the heads.

    score b h r c  = fill                                  where the mask bit at (b, r, c) is set,
                   = (∑ d, q[b,h,r,d] · k[b,h,c,d]) / 8     elsewhere;
    weight b h r c = exp (score b h r c − max_c') / ∑ c', exp (score b h r c' − max_c')    (a softmax over c);
    out b h r d    = ∑ c, weight b h r c · v[b,h,c,d].

  Both programs are shown to end with `out` and `weight` in their two result arrays.
-/
import Idealize.ShloMosaic.PureOps.Ideal
import Idealize.ShloMosaic.Lib.ValueIdx
import proofs.«157889_j7327214207255_2_alg».proof.Proof.LibSoftmaxRow

noncomputable section

namespace Cert.Attn

open Idealize.ShloMosaic Idealize.ShloMosaic.ValueIdx Cert.Softmax

/-- Queries, keys, values and the output: batch, head, position, feature. -/
abbrev QKV : Shape := ⟨4, ![4, 12, 2048, 64]⟩
/-- The pad mask: batch, query position, key position. -/
abbrev MASK : Shape := ⟨3, ![4, 2048, 2048]⟩
/-- The attention weights: batch, head, query position, key position. -/
abbrev ATT : Shape := ⟨4, ![4, 12, 2048, 2048]⟩

/-- The masked, scaled score of query position `r` against key position `c`. -/
def score (A0 A1 : QKV.Idx → EReal) (A3 : MASK.Idx → BitVec 1) (b : Fin 4) (h : Fin 12) (r c : Fin 2048) : EReal :=
  Scalar.select (A3 (ix3 b r c)) (Ideal.ofBits .f32 0xCE6E6B28#32)
    (Ideal.div (∑ d : Fin 64, A0 (ix4 b h r d) * A1 (ix4 b h c d)) (Ideal.ofBits .f32 0x41000000#32))

/-- The softmax weight of key position `c` in the row of query position `r`. -/
def weight (A0 A1 : QKV.Idx → EReal) (A3 : MASK.Idx → BitVec 1) (b : Fin 4) (h : Fin 12) (r c : Fin 2048) : EReal :=
  Ideal.div (num (score A0 A1 A3 b h r) c) (den (score A0 A1 A3 b h r))

/-- The weighted sum of the value rows. -/
def mix (A0 A1 A2 : QKV.Idx → EReal) (A3 : MASK.Idx → BitVec 1) (b : Fin 4) (h : Fin 12) (r : Fin 2048) (d : Fin 64) : EReal :=
  ∑ c : Fin 2048, weight A0 A1 A3 b h r c * A2 (ix4 b h c d)

/-- The attention-weight array. -/
def attn (A0 A1 : QKV.Idx → EReal) (A3 : MASK.Idx → BitVec 1) : ATT.Idx → EReal :=
  fun i => weight A0 A1 A3 (i 0) (i 1) (i 2) (i 3)

/-- The output array. -/
def out (A0 A1 A2 : QKV.Idx → EReal) (A3 : MASK.Idx → BitVec 1) : QKV.Idx → EReal :=
  fun i => mix A0 A1 A2 A3 (i 0) (i 1) (i 2) (i 3)

theorem attn_apply (A0 A1 : QKV.Idx → EReal) (A3 : MASK.Idx → BitVec 1) (b : Fin 4) (h : Fin 12) (r c : Fin 2048) :
    attn A0 A1 A3 (ix4 b h r c) = weight A0 A1 A3 b h r c := rfl

theorem out_apply (A0 A1 A2 : QKV.Idx → EReal) (A3 : MASK.Idx → BitVec 1) (b : Fin 4) (h : Fin 12) (r : Fin 2048) (d : Fin 64) :
    out A0 A1 A2 A3 (ix4 b h r d) = mix A0 A1 A2 A3 b h r d := rfl

end Cert.Attn

end
-- ==== Proof.AttentionMath.lean ====
/-
  The two algebraic facts that join the two spellings of masked scaled-dot-product attention.

  The scores.  One program scales the query before the product, the other divides the product by eight:
  for real queries and keys `∑ d, (q d · 1/8) · k d = (∑ d, q d · k d) / 8`, because over the reals the factor
  one eighth leaves the sum.  (Over the extended reals it need not: an infinite query entry could meet an
  opposite infinite product.  Hence the hypothesis that the entries are real.)  A score is the fill value where
  the mask bit is set and this number elsewhere, so every score is real.

  The normalisation.  With real scores the softmax denominator is a positive real, so multiplying by its
  reciprocal is dividing by it, before or after the weighted sum over the keys (the softmax-row lemmas).
-/
import Idealize.ShloMosaic.PureOps.Ideal
import Idealize.ShloMosaic.PureOps.Ideal.Laws
import proofs.«157889_j7327214207255_2_alg».proof.Proof.LibSoftmaxRow

noncomputable section

namespace Cert.Attn

open Idealize.ShloMosaic Cert.Softmax

variable {ι : Type} [Fintype ι]

/-- A dot product of real vectors is real. -/
theorem dot_real (q k : ι → EReal) (hq : ∀ d, ∃ r : ℝ, q d = r) (hk : ∀ d, ∃ r : ℝ, k d = r) :
    ∃ r : ℝ, ∑ d, q d * k d = r := by
  choose Q hQ using hq
  choose K hK using hk
  refine ⟨∑ d, Q d * K d, ?_⟩
  rw [coe_sum]
  exact Finset.sum_congr rfl fun d _ => by rw [hQ, hK, EReal.coe_mul]

/-- Scaling every query entry by one eighth before the product is dividing the product by eight. -/
theorem scaled_dot_eq (q k : ι → EReal) (hq : ∀ d, ∃ r : ℝ, q d = r) (hk : ∀ d, ∃ r : ℝ, k d = r) :
    ∑ d, (q d * ((1 / 8 : ℝ) : EReal)) * k d = Ideal.div (∑ d, q d * k d) ((8 : ℝ) : EReal) := by
  choose Q hQ using hq
  choose K hK using hk
  rw [Ideal.div_coe (by norm_num : (8 : ℝ) ≠ 0)]
  have e1 : ∀ d, (q d * ((1 / 8 : ℝ) : EReal)) * k d = ((Q d * (1 / 8) * K d : ℝ) : EReal) := fun d => by
    rw [hQ, hK, EReal.coe_mul, EReal.coe_mul]
  have e2 : ∀ d, q d * k d = ((Q d * K d : ℝ) : EReal) := fun d => by rw [hQ, hK, EReal.coe_mul]
  simp only [e1, e2]
  rw [← coe_sum, ← coe_sum, ← EReal.coe_mul]
  congr 1
  rw [Finset.sum_mul]
  exact Finset.sum_congr rfl fun d _ => by ring

/-- The quotient of a real by eight is real. -/
theorem div_eight_real {x : EReal} (hx : ∃ r : ℝ, x = r) : ∃ r : ℝ, Ideal.div x ((8 : ℝ) : EReal) = r := by
  obtain ⟨r, rfl⟩ := hx
  refine ⟨r * (1 / 8), ?_⟩
  rw [Ideal.div_coe (by norm_num : (8 : ℝ) ≠ 0), EReal.coe_mul]

/-- A choice between two reals is real. -/
theorem select_real (b : BitVec 1) {x y : EReal} (hx : ∃ r : ℝ, x = r) (hy : ∃ r : ℝ, y = r) :
    ∃ r : ℝ, Scalar.select b x y = r := by
  unfold Scalar.select
  split
  · exact hx
  · exact hy

end Cert.Attn

end
-- ==== Proof.Bridge.lean ====
/-
  The kernel's arrays are the specification's.

  The launch reads the queries, keys and values flattened to `[48, 2048, 64]` (head `h` of batch `b` is row
  `12 · b + h`) and the mask widened from bits to words; its results are cast back to `[4, 12, 2048, ·]`.  Entry
  by entry: the flattening only renames indices, a word widened from a bit is nonzero exactly when the bit is set,
  the scaled product is the product divided by eight (real entries), and the reciprocal of the softmax
  denominator, a positive real, may be applied to each weight before or after the sum over the keys.
-/
import proofs.«157889_j7327214207255_2_alg».proof.Proof.KernelPoint
import proofs.«157889_j7327214207255_2_alg».proof.Proof.AttentionSpec
import proofs.«157889_j7327214207255_2_alg».proof.Proof.AttentionMath
import proofs.«157889_j7327214207255_2_alg».proof.Proof.Consts
import Idealize.ShloMosaic.Lib.Pipeline.Value

noncomputable section

namespace Cert.KernelIdeal.Bridge

open Cert.KernelIdeal Idealize.ShloMosaic Idealize.ShloMosaic.ValueIdx Cert.Softmax
open Cert.KernelIdeal.Point

/-- Head `h` of batch `b` in the flattened arrays. -/
def flat (b : Fin 4) (h : Fin 12) : Fin 48 := ⟨12 * b.val + h.val, by have := b.isLt; have := h.isLt; omega⟩

theorem batchOf_flat (b : Fin 4) (h : Fin 12) : batchOf (flat b h) = b :=
  Fin.ext (by show (12 * b.val + h.val) / 12 = b.val; have := h.isLt; omega)

/-- The flattening `[4, 12, 2048, n] → [48, 2048, n]` read at row `12 · b + h`. -/
theorem flatten_apply {α : Type} {n : Nat} (X : (⟨4, ![4, 12, 2048, n]⟩ : Shape).Idx → α)
    (hc : (⟨4, ![4, 12, 2048, n]⟩ : Shape).ShapeCasts ⟨3, ![48, 2048, n]⟩) (b : Fin 4) (h : Fin 12) (r : Fin 2048) (d : Fin n) :
    shapeCast ⟨3, ![48, 2048, n]⟩ X hc (ix3 (flat b h) r d) = X (ix4 b h r d) :=
  shapeCast_apply X hc _ _ (by
    rw [Shape.rowMajor_val_four, Shape.rowMajor_val_three]
    show ((b.val * 12 + h.val) * 2048 + r.val) * n + d.val = ((12 * b.val + h.val) * 2048 + r.val) * n + d.val
    rw [Nat.mul_comm b.val 12])

/-- The cast back `[48, 2048, n] → [4, 12, 2048, n]` read at `(b, h, r, d)`. -/
theorem unflatten_apply {α : Type} {n : Nat} (Y : (⟨3, ![48, 2048, n]⟩ : Shape).Idx → α)
    (hc : (⟨3, ![48, 2048, n]⟩ : Shape).ShapeCasts ⟨4, ![4, 12, 2048, n]⟩) (b : Fin 4) (h : Fin 12) (r : Fin 2048) (d : Fin n) :
    shapeCast ⟨4, ![4, 12, 2048, n]⟩ Y hc (ix4 b h r d) = Y (ix3 (flat b h) r d) :=
  shapeCast_apply Y hc _ _ (by
    rw [Shape.rowMajor_val_four, Shape.rowMajor_val_three]
    show ((12 * b.val + h.val) * 2048 + r.val) * n + d.val = ((b.val * 12 + h.val) * 2048 + r.val) * n + d.val
    rw [Nat.mul_comm b.val 12])

/-- A word widened from a bit is nonzero exactly when the bit is set. -/
theorem ne_zero_widen (x : BitVec 1) : IntOp.cmpi .ne (x.setWidth 32) 0#32 = x := by
  rcases BitVec.eq_zero_or_eq_one x with h | h <;> subst h <;> decide

variable (A0 A1 A2 : FVec Ideal S4x12x2048x64 .f32) (A3 : IVec S4x2048x2048 1)
variable (hin : S4x12x2048x64.ShapeCasts S48x2048x64) (hw : 1 < 32)

/-- The kernel's scores of head `12 · b + h` are the specification's of `(b, h)`. -/
theorem kscore_eq (h0 : ∀ i, ∃ x : ℝ, A0 i = x) (h1 : ∀ i, ∃ x : ℝ, A1 i = x) (b : Fin 4) (h : Fin 12) (r : Fin 2048) :
    kscore (shapeCast S48x2048x64 A0 hin) (shapeCast S48x2048x64 A1 hin) (extui 32 A3 hw) (flat b h) r
      = Cert.Attn.score A0 A1 A3 b h r := by
  funext c
  unfold kscore Cert.Attn.score
  rw [batchOf_flat]
  show Scalar.select (IntOp.cmpi .ne ((A3 (ix3 b r c)).setWidth 32) 0#32) _ _ = _
  rw [ne_zero_widen]
  refine congrArg (Scalar.select _ _) ?_
  rw [Cert.Attn.Consts.ofBits_eighth, Cert.Attn.Consts.ofBits_eight]
  have e : ∀ d : Fin 64, (shapeCast S48x2048x64 A0 hin (ix3 (flat b h) r d) * ((1 / 8 : ℝ) : EReal))
      * shapeCast S48x2048x64 A1 hin (ix3 (flat b h) c d)
      = (A0 (ix4 b h r d) * ((1 / 8 : ℝ) : EReal)) * A1 (ix4 b h c d) := fun d => by
    rw [flatten_apply, flatten_apply]
  rw [Finset.sum_congr rfl fun d _ => e d]
  exact Cert.Attn.scaled_dot_eq (fun d => A0 (ix4 b h r d)) (fun d => A1 (ix4 b h c d)) (fun d => h0 _) (fun d => h1 _)

/-- Every score is a real number. -/
theorem score_real (h0 : ∀ i, ∃ x : ℝ, A0 i = x) (h1 : ∀ i, ∃ x : ℝ, A1 i = x) (b : Fin 4) (h : Fin 12) (r c : Fin 2048) :
    ∃ x : ℝ, Cert.Attn.score A0 A1 A3 b h r c = x := by
  unfold Cert.Attn.score
  refine Cert.Attn.select_real _ Cert.Attn.Consts.ofBits_fill_real ?_
  rw [Cert.Attn.Consts.ofBits_eight]
  exact Cert.Attn.div_eight_real (Cert.Attn.dot_real (fun d => A0 (ix4 b h r d)) (fun d => A1 (ix4 b h c d)) (fun d => h0 _) (fun d => h1 _))

/-- THE ATTENTION RESULT: the kernel's attention array, cast back, is the specification's. -/
theorem attn_eq (hout : S48x2048x2048.ShapeCasts S4x12x2048x2048)
    (h0 : ∀ i, ∃ x : ℝ, A0 i = x) (h1 : ∀ i, ∃ x : ℝ, A1 i = x) :
    shapeCast S4x12x2048x2048
        (kattn (shapeCast S48x2048x64 A0 hin) (shapeCast S48x2048x64 A1 hin) (extui 32 A3 hw)) hout
      = Cert.Attn.attn A0 A1 A3 := by
  funext i
  obtain ⟨b, h, r, c, rfl⟩ : ∃ (b : Fin 4) (h : Fin 12) (r c : Fin 2048), i = ix4 b h r c := ⟨i 0, i 1, i 2, i 3, eq_ix4 i⟩
  rw [unflatten_apply, kattn_apply, Cert.Attn.attn_apply]
  unfold krecip Cert.Attn.weight
  rw [kscore_eq A0 A1 A3 hin hw h0 h1 b h r, Cert.Attn.Consts.ofBits_one]
  exact num_mul_inv_den (score_real A0 A1 A3 h0 h1 b h r) c

/-- THE OUTPUT RESULT: the kernel's output array, cast back, is the specification's. -/
theorem out_eq (hout : S48x2048x64.ShapeCasts S4x12x2048x64)
    (h0 : ∀ i, ∃ x : ℝ, A0 i = x) (h1 : ∀ i, ∃ x : ℝ, A1 i = x) :
    shapeCast S4x12x2048x64
        (kout (shapeCast S48x2048x64 A0 hin) (shapeCast S48x2048x64 A1 hin) (shapeCast S48x2048x64 A2 hin)
          (extui 32 A3 hw)) hout
      = Cert.Attn.out A0 A1 A2 A3 := by
  funext i
  obtain ⟨b, h, r, d, rfl⟩ : ∃ (b : Fin 4) (h : Fin 12) (r : Fin 2048) (d : Fin 64), i = ix4 b h r d := ⟨i 0, i 1, i 2, i 3, eq_ix4 i⟩
  rw [unflatten_apply, kout_apply, Cert.Attn.out_apply]
  unfold krecip Cert.Attn.mix Cert.Attn.weight
  rw [kscore_eq A0 A1 A3 hin hw h0 h1 b h r, Cert.Attn.Consts.ofBits_one]
  have e : ∀ c : Fin 2048, num (Cert.Attn.score A0 A1 A3 b h r) c * shapeCast S48x2048x64 A2 hin (ix3 (flat b h) c d)
      = num (Cert.Attn.score A0 A1 A3 b h r) c * A2 (ix4 b h c d) := fun c => by rw [flatten_apply]
  rw [Finset.sum_congr rfl fun c _ => e c]
  exact sum_mul_inv_den (score_real A0 A1 A3 h0 h1 b h r) (fun c => A2 (ix4 b h c d))

end Cert.KernelIdeal.Bridge

end
-- ==== Proof.FiniteInputs.lean ====
/-
  The precondition, decoded: `finite_inputs` says of each float argument that every entry's absolute value is
  below plus infinity (a conjunction of three `all` reductions), and an extended real with that property is a real
  number.
-/
import proofs.«157889_j7327214207255_2_alg».proof.Pre_finite_inputs
import proofs.«157889_j7327214207255_2_alg».proof.Proof.Gen.Pre_finite_inputs
import proofs.«157889_j7327214207255_2_alg».proof.Proof.Consts
import Idealize.ShloMosaic.Lib.ReduceAll
import Idealize.ShloMosaic.Lib.Affine
import Idealize.ShloMosaic.Lib.ValueIdx
import Idealize.ShloMosaic.PureOps.Ideal

noncomputable section

namespace Cert.Pre_finite_inputs.Finite

open Cert.Pre_finite_inputs Cert.Pre_finite_inputs.Gen Idealize.ShloMosaic

instance : Subsingleton S_.Idx := ⟨fun _ _ => funext fun d => d.elim0⟩

/-- An extended real whose absolute value compares below plus infinity is a real number. -/
theorem real_of_abs_lt (x : EReal)
    (h : Ideal.cmp .olt (max x (-x)) (Ideal.ofBits .f32 0x7F800000#32) = 1#1) : ∃ r : ℝ, x = r := by
  rw [Cert.Attn.Consts.ofBits_posInf] at h
  induction x using EReal.rec with
  | bot => simp [Ideal.cmp] at h
  | coe r => exact ⟨r, rfl⟩
  | top => simp [Ideal.cmp] at h

/-- Under the precondition every entry of the three float arguments is a real number. -/
theorem real_of_pre (a0 a1 a2 : FVec Ideal S4x12x2048x64 .f32) (a3 : IVec S4x2048x2048 1)
    (h : fn (F := Ideal) a0 a1 a2 a3 = fun _ => 1#1) :
    (∀ i, ∃ r : ℝ, a0 i = r) ∧ (∀ i, ∃ r : ℝ, a1 i = r) ∧ (∀ i, ∃ r : ℝ, a2 i = r) := by
  have h0 := congrFun h ValueIdx.ix0
  dsimp only [fn] at h0
  obtain ⟨h01, h2⟩ := IntOp.andi_eq_one.1 h0
  obtain ⟨h0', h1⟩ := IntOp.andi_eq_one.1 h01
  refine ⟨fun i => real_of_abs_lt _ (Host.reduce_andi_all _ _ _ _ _ h0' i),
    fun i => real_of_abs_lt _ (Host.reduce_andi_all _ _ _ _ _ h1 i),
    fun i => real_of_abs_lt _ (Host.reduce_andi_all _ _ _ _ _ h2 i)⟩

end Cert.Pre_finite_inputs.Finite

end
-- ==== Proof.ReferenceRows.lean ====
/-
  The reference program, read one operation at a time at an index given by its coordinates, is the
  specification: its masked scores are `score`, its row maximum (a fold of `max` from minus infinity, taken once
  more against minus infinity) is the softmax row maximum, its exponentials are the numerators, its row sum from
  zero is the denominator, its quotient is `weight` and its last product is `mix`.
-/
import proofs.«157889_j7327214207255_2_alg».proof.Proof.Gen.ReferenceIdeal.Read
import proofs.«157889_j7327214207255_2_alg».proof.Proof.AttentionSpec
import proofs.«157889_j7327214207255_2_alg».proof.Proof.Consts
import Idealize.ShloMosaic.PureOps.Reduce

noncomputable section

namespace Cert.ReferenceIdeal.Rows

open Cert.ReferenceIdeal Cert.ReferenceIdeal.Gen Cert.ReferenceIdeal.Read Idealize.ShloMosaic Idealize.ShloMosaic.ValueIdx
open Cert.Softmax Cert.Attn

variable (A0 A1 A2 : FVec Ideal S4x12x2048x64 .f32) (A3 : IVec S4x2048x2048 1)

/-- The first product at `(b, h, r, c)`: the dot product of query row `r` and key row `c`. -/
theorem v0_at (b : Fin 4) (h : Fin 12) (r c : Fin 2048) :
    val_main_v0 (F := Ideal) A0 A1 (ix4 b h r c) = ∑ d : Fin 64, A0 (ix4 b h r d) * A1 (ix4 b h c d) := by
  rw [val_main_v0_apply]
  refine Finset.sum_congr rfl fun d _ => ?_
  rw [show lidx_main_v0 (ix4 b h r c) d = ix4 b h r d from funext fun a => Fin.ext (by match a with | ⟨0, _⟩ => rfl | ⟨1, _⟩ => rfl | ⟨2, _⟩ => rfl | ⟨3, _⟩ => rfl),
    show ridx_main_v0 (ix4 b h r c) d = ix4 b h c d from funext fun a => Fin.ext (by match a with | ⟨0, _⟩ => rfl | ⟨1, _⟩ => rfl | ⟨2, _⟩ => rfl | ⟨3, _⟩ => rfl)]

/-- The masked scores are the specification's. -/
theorem v4_at (b : Fin 4) (h : Fin 12) (r c : Fin 2048) :
    val_main_v4 (F := Ideal) A0 A1 A3 (ix4 b h r c) = score A0 A1 A3 b h r c := by
  rw [val_main_v4_apply, val_main_call0_v1_apply, val_main_v3_apply, val_main_call0_v2_apply, val_main_call0_v0_apply,
    val_main_cst_0_apply, val_main_v2_apply, v0_at, val_main_v1_apply, val_main_cst_apply,
    show idx_main_v3 (idx_main_call0_v1 (ix4 b h r c)) = ix3 b r c from funext fun a => Fin.ext (by match a with | ⟨0, _⟩ => rfl | ⟨1, _⟩ => rfl | ⟨2, _⟩ => rfl)]
  rfl

/-- The witness that the last axis of the score array is the one reduced. -/
theorem reduces_last : S4x12x2048x2048.Reduces [3] S4x12x2048 := by decide

/-- The host's reduction by `max` over the last axis, from minus infinity, is the row's maximum. -/
theorem hostRowMax (X : FVec Ideal S4x12x2048x2048 .f32) (init : FVec Ideal S_ .f32) (s : Fin 2048 → EReal)
    (b : Fin 4) (h : Fin 12) (r : Fin 2048) (hX : ∀ c, X (ix4 b h r c) = s c)
    (hinit : init (Shape.Idx.first h_S_) = ⊥) :
    Host.reduce (FloatOps.maximumf (F := Ideal) (φ := .f32)) X init reducesTo_S4x12x2048x2048_S4x12x2048_d3 h_S_ (ix3 b h r)
      = rowMax s := by
  refine (Host.reduce_eq_fold_single (FloatOps.maximumf (F := Ideal) (φ := .f32)) X init
    reducesTo_S4x12x2048x2048_S4x12x2048_d3 reduces_last h_S_ (ix3 b h r)).trans ?_
  unfold rowMax
  rw [hinit]
  refine congrArg (fun f => Finset.fold max ⊥ f (Finset.univ : Finset (Fin 2048))) (funext fun k => ?_)
  show X (reduces_last.lift (ix3 b h r) k) = s k
  rw [← hX k]
  exact congrArg X (funext fun a => Fin.ext (by match a with | ⟨0, _⟩ => rfl | ⟨1, _⟩ => rfl | ⟨2, _⟩ => rfl | ⟨3, _⟩ => rfl))

/-- The row maximum, from minus infinity. -/
theorem v5_at (b : Fin 4) (h : Fin 12) (r : Fin 2048) :
    val_main_v5 (F := Ideal) A0 A1 A3 (ix3 b h r) = rowMax (score A0 A1 A3 b h r) :=
  hostRowMax (val_main_v4 (F := Ideal) A0 A1 A3) (val_main_cst_1 (F := Ideal)) _ b h r (v4_at A0 A1 A3 b h r)
    Cert.Attn.Consts.ofBits_negInf

/-- Taken once more against minus infinity it is unchanged. -/
theorem v7_at (b : Fin 4) (h : Fin 12) (r : Fin 2048) :
    val_main_v7 (F := Ideal) A0 A1 A3 (ix3 b h r) = rowMax (score A0 A1 A3 b h r) := by
  rw [val_main_v7_apply, val_main_v6_apply, val_main_cst_2_apply, v5_at]
  show max (Ideal.ofBits .f32 0xFF800000#32) _ = _
  rw [Cert.Attn.Consts.ofBits_negInf]
  exact max_eq_right bot_le

/-- The exponentials are the softmax numerators. -/
theorem v11_at (b : Fin 4) (h : Fin 12) (r c : Fin 2048) :
    val_main_v11 (F := Ideal) A0 A1 A3 (ix4 b h r c) = num (score A0 A1 A3 b h r) c := by
  rw [val_main_v11_apply, val_main_v10_apply, v4_at, val_main_v9_apply, val_main_v8_apply,
    show idx_main_v8 (idx_main_v9 (ix4 b h r c)) = ix3 b h r from funext fun a => Fin.ext (by match a with | ⟨0, _⟩ => rfl | ⟨1, _⟩ => rfl | ⟨2, _⟩ => rfl), v7_at]
  rfl

/-- The row sum from zero is the softmax denominator. -/
theorem v12_at (b : Fin 4) (h : Fin 12) (r : Fin 2048) :
    val_main_v12 (F := Ideal) A0 A1 A3 (ix3 b h r) = den (score A0 A1 A3 b h r) := by
  rw [val_main_v12_apply, val_main_cst_3_apply]
  show Ideal.ofBits .f32 0x00000000#32 + _ = _
  rw [Ideal.ofBits_zero_f32, zero_add]
  unfold den
  refine Finset.sum_congr rfl fun k _ => ?_
  rw [show idx_main_v12 (ix3 b h r) k = ix4 b h r k from funext fun a => Fin.ext (by match a with | ⟨0, _⟩ => rfl | ⟨1, _⟩ => rfl | ⟨2, _⟩ => rfl | ⟨3, _⟩ => rfl), v11_at]

/-- The quotient is the softmax weight. -/
theorem v15_at (b : Fin 4) (h : Fin 12) (r c : Fin 2048) :
    val_main_v15 (F := Ideal) A0 A1 A3 (ix4 b h r c) = weight A0 A1 A3 b h r c := by
  rw [val_main_v15_apply, v11_at, val_main_v14_apply, val_main_v13_apply,
    show idx_main_v13 (idx_main_v14 (ix4 b h r c)) = ix3 b h r from funext fun a => Fin.ext (by match a with | ⟨0, _⟩ => rfl | ⟨1, _⟩ => rfl | ⟨2, _⟩ => rfl), v12_at]
  rfl

/-- THE SECOND RESULT is the attention-weight array. -/
theorem attn_eq : val_main_v15 (F := Ideal) A0 A1 A3 = attn A0 A1 A3 := by
  funext i
  obtain ⟨b, h, r, c, rfl⟩ : ∃ (b : Fin 4) (h : Fin 12) (r c : Fin 2048), i = ix4 b h r c := ⟨i 0, i 1, i 2, i 3, eq_ix4 i⟩
  rw [v15_at, attn_apply]

/-- THE FIRST RESULT is the output array. -/
theorem out_eq : val_main_v16 (F := Ideal) A0 A1 A2 A3 = out A0 A1 A2 A3 := by
  funext i
  obtain ⟨b, h, r, d, rfl⟩ : ∃ (b : Fin 4) (h : Fin 12) (r : Fin 2048) (d : Fin 64), i = ix4 b h r d := ⟨i 0, i 1, i 2, i 3, eq_ix4 i⟩
  rw [val_main_v16_apply, out_apply]
  unfold mix
  refine Finset.sum_congr rfl fun k _ => ?_
  rw [show lidx_main_v16 (ix4 b h r d) k = ix4 b h r k from funext fun a => Fin.ext (by match a with | ⟨0, _⟩ => rfl | ⟨1, _⟩ => rfl | ⟨2, _⟩ => rfl | ⟨3, _⟩ => rfl),
    show ridx_main_v16 (ix4 b h r d) k = ix4 b h k d from funext fun a => Fin.ext (by match a with | ⟨0, _⟩ => rfl | ⟨1, _⟩ => rfl | ⟨2, _⟩ => rfl | ⟨3, _⟩ => rfl), v15_at]

end Cert.ReferenceIdeal.Rows

end
-- ==== Proof.lean ====
/-
  Masked scaled-dot-product attention with both results returned — the output `softmax(q kᵀ / 8 masked) v` and the
  attention weights themselves —: a kernel that works one (head, 512-row query tile) at a time against a plain
  whole-array reference, equal as extended reals under the precondition that every float input is finite.

  The specification (AttentionSpec) states the two results as functions of the four argument arrays, entry by
  entry.  The reference is that function operation by operation (ReferenceRows).  The kernel scales the queries by
  one eighth before the first product where the reference divides the product by eight, fills masked scores with
  the same finite value, takes the same row maximum and exponentials, and multiplies by the reciprocal of the row
  sum where the reference divides by it — the attention block before, the output block after the second product.
  What one run of its body stores is read in BodyStores and KernelRow, what each grid point writes back is a block
  of two whole-array functions (KernelPoint), the blocks tile the arrays (KernelArrays), the program's results
  are those arrays cast back (KernelRun), and they are the specification because the query and key entries are
  real numbers (FiniteInputs): a real factor leaves a sum of reals, and the reciprocal of a positive real
  denominator distributes over the weighted sum of the values, whatever the values are (Bridge, AttentionMath, the
  softmax-row lemmas).  The ideal pass rewrote nothing, so the preservation claim is trivial.
-/
import proofs.«157889_j7327214207255_2_alg».proof.Defs
import proofs.«157889_j7327214207255_2_alg».proof.Proof.Gen.Kernel
import proofs.«157889_j7327214207255_2_alg».proof.Proof.Gen.Kernel.Skeleton
import proofs.«157889_j7327214207255_2_alg».proof.Proof.Gen.Kernel.Launch
import proofs.«157889_j7327214207255_2_alg».proof.Proof.Gen.Kernel.Points
import proofs.«157889_j7327214207255_2_alg».proof.Proof.Gen.Kernel.Frame
import proofs.«157889_j7327214207255_2_alg».proof.Proof.Gen.KernelIdeal
import proofs.«157889_j7327214207255_2_alg».proof.Proof.Gen.KernelIdeal.Skeleton
import proofs.«157889_j7327214207255_2_alg».proof.Proof.Gen.KernelIdeal.Launch
import proofs.«157889_j7327214207255_2_alg».proof.Proof.Gen.KernelIdeal.Points
import proofs.«157889_j7327214207255_2_alg».proof.Proof.Gen.KernelIdeal.Frame
import proofs.«157889_j7327214207255_2_alg».proof.Proof.Gen.ReferenceIdeal
import proofs.«157889_j7327214207255_2_alg».proof.Proof.Gen.Pre_finite_inputs
import proofs.«157889_j7327214207255_2_alg».proof.Proof.Gen.ReferenceIdeal.Run
import proofs.«157889_j7327214207255_2_alg».proof.Proof.Gen.ReferenceIdeal.Read
import proofs.«157889_j7327214207255_2_alg».proof.Proof.KernelRun
import proofs.«157889_j7327214207255_2_alg».proof.Proof.Bridge
import proofs.«157889_j7327214207255_2_alg».proof.Proof.FiniteInputs
import proofs.«157889_j7327214207255_2_alg».proof.Proof.ReferenceRows
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and keeps its arguments: its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The ideal pass rewrote no operation. -/
theorem preserves : Cert.preserves_Kernel_KernelIdeal := trivial

/-- Both idealized programs end with the specification's output and attention arrays. -/
theorem algebraic : Cert.algebraic_KernelIdeal_ReferenceIdeal := by
  intro m ρ m' ρ' hpre hagree
  refine ⟨fun c => Cert.Attn.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    fun c => Cert.Attn.attn (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg3)), ?_, ?_⟩
  · refine (θ_run Cert.KernelIdeal.defs _ _).mono (fun _ h c => ?_) (Cert.KernelIdeal.Run.run m ρ)
    obtain ⟨r0, r1, -⟩ := Cert.Pre_finite_inputs.Finite.real_of_pre _ _ _ _ (hpre c)
    refine ⟨(h c).1.trans ?_, (h c).2.1.trans ?_, (h c).2.2⟩
    · rw [Cert.KernelIdeal.Run.V_q, Cert.KernelIdeal.Run.V_k, Cert.KernelIdeal.Run.V_v, Cert.KernelIdeal.Run.V_mask]
      exact Cert.KernelIdeal.Bridge.out_eq _ _ _ _ _ _ _ r0 r1
    · rw [Cert.KernelIdeal.Run.V_q, Cert.KernelIdeal.Run.V_k, Cert.KernelIdeal.Run.V_mask]
      exact Cert.KernelIdeal.Bridge.attn_eq _ _ _ _ _ _ r0 r1
  · refine (θ_run Cert.ReferenceIdeal.defs _ _).mono (fun _ h c => ?_) (Cert.ReferenceIdeal.Value.run (F := Ideal) m' ρ')
    refine ⟨(h c).1.trans ?_, (h c).2.1.trans ?_, (h c).2.2⟩
    · rw [Cert.ReferenceIdeal.Read.val_main_v16_eq, Cert.ReferenceIdeal.Rows.out_eq, (hagree c).1, (hagree c).2.1,
        (hagree c).2.2.1, (hagree c).2.2.2]
    · rw [Cert.ReferenceIdeal.Read.val_main_v15_eq, Cert.ReferenceIdeal.Rows.attn_eq, (hagree c).1, (hagree c).2.1,
        (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
